-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S64 .f32) (main_arg7 : FVec F S64x2 .f32) (main_arg8 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg7
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 105
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x64, .f32⟩
  | .hbm, ⟨78, _⟩ => ⟨S3300000x1, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S_, .f32⟩
  | .hbm, ⟨88, _⟩ => ⟨S512x64, .f32⟩
  | .hbm, ⟨89, _⟩ => ⟨S100000x1, .i32⟩
  | .hbm, ⟨90, _⟩ => ⟨S512x64, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S512, .f32⟩
  | .hbm, ⟨95, _⟩ => ⟨S100000x1, .i32⟩
  | .hbm, ⟨96, _⟩ => ⟨S512, .f32⟩
  | .hbm, ⟨97, _⟩ => ⟨S_, .f32⟩
  | .hbm, ⟨98, _⟩ => ⟨S512, .f32⟩
  | .hbm, ⟨99, _⟩ => ⟨S512, .f32⟩
  | .hbm, ⟨100, _⟩ => ⟨S512x1, .f32⟩
  | .hbm, ⟨101, _⟩ => ⟨S512x64, .f32⟩
  | .hbm, ⟨102, _⟩ => ⟨S512x64, .f32⟩
  | .hbm, ⟨103, _⟩ => ⟨S1x2, .f32⟩
  | .hbm, ⟨104, _⟩ => ⟨S512x2, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S512x64, .f32⟩
  | .local _ .vmem, ⟨21, _⟩ => ⟨S64x2, .f32⟩
  | .local _ .vmem, ⟨22, _⟩ => ⟨S1x2, .f32⟩
  | .local _ .vmem, ⟨23, _⟩ => ⟨S512x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S2_S1x2 : S2.ShapeCasts S1x2
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x2.size a ≤ S512x2.size a
  hwx4_3 : ∀ i : grid4.Coords, EltTy.bits .f32 = 32 ∨ (Rect.block (s := S512x2) S512x2.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S512x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S512x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x2, .f32⟩
  | 8 => ⟨S2, .f32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S100000x64, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x64, .f32⟩
  | 59 => ⟨S3300000x1, .f32⟩
  | 60 => ⟨S3300000x64, .f32⟩
  | 61 => ⟨S3300000x64, .f32⟩
  | 62 => ⟨S_, .f32⟩
  | 63 => ⟨S100000x64, .f32⟩
  | 64 => ⟨S3300000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S3300000, .i32⟩
  | 75 => ⟨S3300000, .i1⟩
  | 76 => ⟨S_, .i32⟩
  | 77 => ⟨S3300000, .i32⟩
  | 78 => ⟨S3300000, .i32⟩
  | 79 => ⟨S3300000, .i32⟩
  | 80 => ⟨S3300000x1, .i32⟩
  | 81 => ⟨S3300000, .f32⟩
  | 82 => ⟨S_, .i32⟩
  | 83 => ⟨S3300000, .i32⟩
  | 84 => ⟨S3300000, .i1⟩
  | 85 => ⟨S_, .i32⟩
  | 86 => ⟨S3300000, .i32⟩
  | 87 => ⟨S3300000, .i32⟩
  | 88 => ⟨S3300000, .i32⟩
  | 89 => ⟨S3300000x1, .i32⟩
  | 90 => ⟨S3300000, .f32⟩
  | 91 => ⟨S3300000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000x64, .f32⟩
  | 101 => ⟨S3300000x1, .f32⟩
  | 102 => ⟨S3300000x64, .f32⟩
  | 103 => ⟨S3300000x64, .f32⟩
  | 104 => ⟨S_, .f32⟩
  | 105 => ⟨S100000x64, .f32⟩
  | 106 => ⟨S3300000x1, .i32⟩
  | 107 => ⟨S100000x64, .f32⟩
  | 108 => ⟨S1x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S_, .f32⟩
  | 115 => ⟨S512x64, .f32⟩
  | 116 => ⟨S100000x1, .i32⟩
  | 117 => ⟨S512x64, .f32⟩
  | 118 => ⟨S_, .f32⟩
  | 119 => ⟨S100000, .f32⟩
  | 120 => ⟨S_, .f32⟩
  | 121 => ⟨S512, .f32⟩
  | 122 => ⟨S100000x1, .i32⟩
  | 123 => ⟨S512, .f32⟩
  | 124 => ⟨S_, .f32⟩
  | 125 => ⟨S512, .f32⟩
  | 126 => ⟨S512, .f32⟩
  | 127 => ⟨S512x1, .f32⟩
  | _ => ⟨S100000x128, .f32⟩

abbrev hbmTy0_1 (i : Nat) : BufTy := match i % 128 with
  | 0 => ⟨S512x64, .f32⟩
  | 1 => ⟨S512x64, .f32⟩
  | 2 => ⟨S512x2, .f32⟩
  | 3 => ⟨S1x2, .f32⟩
  | 4 => ⟨S512x2, .f32⟩
  | 5 => ⟨S512x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call2_cst : Ref sig .tc := ⟨.hbm, 111, rfl⟩
abbrev main_call2_v0 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_17 : Ref sig .tc := ⟨.hbm, 118, rfl⟩
abbrev main_v84 : Ref sig .tc := ⟨.hbm, 119, rfl⟩
abbrev main_cst_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S3300000x1_S3300000_n_0_0_1_wf : ScatterDims.WF S100000 S3300000x1 S3300000 [] [0] [0] 1
  dot_S100000x128_S128x64_S100000x64_1_0_0_1_n_n_wf : DotDims.WF S100000x128 S128x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x2_S512x2_1_0_0_1_n_n_wf : DotDims.WF S512x64 S64x2 S512x2 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

class Facts : Prop extends Facts₀ where

variable [Facts]
-- ==== Proof.KRun.lean ====
/-
  The idealized kernel's run with its RESULT named. @main is eleven segments — six stretches of host operations and
  five Pallas calls — and the buffer contents at each boundary are a fold from the launch memory: a stretch applies
  its operations, a call leaves each of its output arrays at what its grid points wrote back and every other buffer
  as it found it. The last boundary's contents are `Gen.W11`. Every weakly fair execution terminates, nothing
  faulting, with the result buffer (the last call's output, f32[512, 2]) at `W11` of that buffer, and the nine
  argument arrays as launched: the launch over the segments, the last thread state read against the final state.
-/
import proofs.«105349_j28750511080087_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v75) = W11 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v75 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Bridge

end
-- ==== Proof.Region0.lean ====
/-
  The first matrix product, region 0 of the kernel's program: ten grid points, point t taking rows 10000 t … 10000 t + 9999
  of the 100000 × 128 left array and the whole 128 × 64 right operand, and storing their product (rounding to bf16 and
  back is the identity on extended reals, and the accumulator starts at zero) as rows 10000 t … of the output. Each
  stored element is a sum over the 128 contraction coordinates of a row of the left block times a column of the right
  operand; the host's dot_general of the whole arrays is, element by element, the same sum; the ten row blocks cover
  the output. So the output array after the region is the host's product of the region's input arrays.
-/
import proofs.«105349_j28750511080087_1_alg».proof.Proof.Gen.KernelIdeal.Frame
import proofs.«105349_j28750511080087_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.Pipeline (Dat)
open scoped BigOperators

/-- The offsets of a whole-buffer access, spelt as the zero function. -/
theorem zero_off0 : (![0, 0] : Fin 2 → Nat) = fun _ => 0 := funext fun a => by fin_cases a <;> rfl

/-! ## The two products at an index: the same sum over the 128 contraction coordinates -/

/-- The block product's left operand index at output index `i` and contraction index `q`: row `i 0` … -/
theorem klhs0_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- … column the contraction coordinate. -/
theorem klhs0_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- Its right operand index: row the contraction coordinate … -/
theorem krhs0_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- … column `i 1`. -/
theorem krhs0_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The block product read at row `p`, column `q`: the accumulator is the zero splat and the format changes are the
    identity on extended reals, so what is left is the sum over `k` of row `p` of the left block times column `q` of the
    right operand. -/
theorem kmat0_apply (x0 : FVec Ideal S10000x128 .f32) (x1 : FVec Ideal S128x64 .f32) (p : Fin 10000) (q : Fin 64) :
    FloatOps.matmul dot_S10000x128_S128x64_S10000x64_1_0_0_1_n_n none (truncf .bf16 x0 bitsLt_bf16_f32 : FVec Ideal S10000x128 .bf16) (truncf .bf16 x1 bitsLt_bf16_f32 : FVec Ideal S128x64 .bf16)
        (constant S10000x64 .f32 0x00000000#32) (ValueIdx.ix2 p q)
      = ∑ k : Fin 128, x0 (ValueIdx.ix2 p k) * x1 (ValueIdx.ix2 k q) := by
  refine (Ideal.matmul_constant_zero_apply dot_S10000x128_S128x64_S10000x64_1_0_0_1_n_n none _ _ (ValueIdx.ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ValueIdx.ix2 p q) ((ValueIdx.contrEquiv1 dot_S10000x128_S128x64_S10000x64_1_0_0_1_n_n 128 rfl rfl).symm k) = ValueIdx.ix2 p k := funext fun a => Fin.ext (by
    match a with
    | ⟨0, _⟩ => exact klhs0_0 _ _
    | ⟨1, _⟩ => exact (klhs0_1 _ _).trans hk)
  have er : dot_S10000x128_S128x64_S10000x64_1_0_0_1_n_n.rhsIdx (ValueIdx.ix2 p q) ((ValueIdx.contrEquiv1 dot_S10000x128_S128x64_S10000x64_1_0_0_1_n_n 128 rfl rfl).symm k) = ValueIdx.ix2 k q := funext fun a => Fin.ext (by
    match a with
    | ⟨0, _⟩ => exact (krhs0_0 _ _).trans hk
    | ⟨1, _⟩ => exact krhs0_1 _ _)
  rw [el, er]
  rfl

/-- The kernel body's stored value at row `p`, column `q` of its block. -/
theorem pay0_apply (x0 : Vec Ideal S10000x128 .f32) (x1 : Vec Ideal S128x64 .f32) (p : Fin 10000) (q : Fin 64) :
    k0_pay1 (F := Ideal) x0 x1 (ValueIdx.ix2 p q) = ∑ k : Fin 128, x0 (ValueIdx.ix2 p k) * x1 (ValueIdx.ix2 k q) := by
  unfold k0_pay1
  exact kmat0_apply x0 x1 p q

/-- The whole-array product's operand indices, as for the block product. -/
theorem rlhs0_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem rlhs0_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem rrhs0_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem rrhs0_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- The host's product of the whole arrays read at row `r`, column `q`: the same sum, over row `r` of the whole left array. -/
theorem ref0_apply (a : FVec Ideal Cert.ReferenceIdeal.S100000x128 .f32) (b : FVec Ideal Cert.ReferenceIdeal.S128x64 .f32)
    (r : Fin 100000) (q : Fin 64) :
    Host.dotGeneral (F := Ideal) Cert.ReferenceIdeal.dot_S100000x128_S128x64_S100000x64_1_0_0_1_n_n none a b (ValueIdx.ix2 r q)
      = ∑ k : Fin 128, a (ValueIdx.ix2 r k) * b (ValueIdx.ix2 k q) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ValueIdx.ix2 r q) ((ValueIdx.contrEquiv1 Cert.ReferenceIdeal.dot_S100000x128_S128x64_S100000x64_1_0_0_1_n_n 128 rfl rfl).symm k) = ValueIdx.ix2 r k := funext fun a => Fin.ext (by
    match a with
    | ⟨0, _⟩ => exact rlhs0_0 _ _
    | ⟨1, _⟩ => exact (rlhs0_1 _ _).trans hk)
  have er : Cert.ReferenceIdeal.dot_S100000x128_S128x64_S100000x64_1_0_0_1_n_n.rhsIdx (ValueIdx.ix2 r q) ((ValueIdx.contrEquiv1 Cert.ReferenceIdeal.dot_S100000x128_S128x64_S100000x64_1_0_0_1_n_n 128 rfl rfl).symm k) = ValueIdx.ix2 k q := funext fun a => Fin.ext (by
    match a with
    | ⟨0, _⟩ => exact (rrhs0_0 _ _).trans hk
    | ⟨1, _⟩ => exact rrhs0_1 _ _)
  rw [el, er]

/-! ## A grid point's stored block is that point's rows of the whole product -/

/-- What a grid point stores, at a block index `j`, is the whole product at the array index `i` that sits `T` blocks of
    10000 rows further down: the left block's rows are those rows of the whole left array (`h0`), the right operand is
    whole (`h1`), and the two sums are then term by term the same. -/
theorem point0 (x0 : Vec Ideal S10000x128 .f32) (x1 : Vec Ideal S128x64 .f32)
    (a : FVec Ideal Cert.ReferenceIdeal.S100000x128 .f32) (b : FVec Ideal Cert.ReferenceIdeal.S128x64 .f32)
    (T : Nat) (j : S10000x64.Idx) (i : Cert.ReferenceIdeal.S100000x64.Idx)
    (hi0 : (i 0).val = T * 10000 + (j 0).val) (hi1 : (i 1).val = (j 1).val)
    (h0 : ∀ (y : S10000x128.Idx) (z : Cert.ReferenceIdeal.S100000x128.Idx), (z 0).val = T * 10000 + (y 0).val → (z 1).val = (y 1).val → x0 y = a z)
    (h1 : ∀ (y : S128x64.Idx), x1 y = b y) :
    k0_pay1 (F := Ideal) x0 x1 j = Host.dotGeneral (F := Ideal) Cert.ReferenceIdeal.dot_S100000x128_S128x64_S100000x64_1_0_0_1_n_n none a b i := by
  obtain ⟨p, q, rfl⟩ : ∃ (p : Fin 10000) (q : Fin 64), j = ValueIdx.ix2 p q := ⟨j 0, j 1, ValueIdx.eq_ix2 j⟩
  obtain ⟨r, q', rfl⟩ : ∃ (r : Fin 100000) (q' : Fin 64), i = ValueIdx.ix2 r q' := ⟨i 0, i 1, ValueIdx.eq_ix2 i⟩
  have hr : r.val = T * 10000 + p.val := hi0
  have hq : q = q' := (Fin.ext hi1).symm
  subst hq
  rw [pay0_apply, ref0_apply]
  refine Finset.sum_congr rfl fun k _ => ?_
  rw [h0 (ValueIdx.ix2 p k) (ValueIdx.ix2 r k) hr rfl, h1 (ValueIdx.ix2 k q)]

/-! ## From the blocks to the array -/

/-- The index maps, decided over the ten grid points: point `t` takes row block `t` of the left array and of the output,
    and the right operand whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The left window's block at point `t` is rows `10000 t … 10000 t + 9999` of the left array. -/
theorem lblk0_apply (c : Dev nD) (t : Fin cfg0.N) (a : FVec Ideal Cert.ReferenceIdeal.S100000x128 .f32)
    (ha : V c main_arg0 = a) (y : S10000x128.Idx) (z : Cert.ReferenceIdeal.S100000x128.Idx)
    (hz0 : (z 0).val = t.val * 10000 + (y 0).val) (hz1 : (z 1).val = (y 1).val) :
    (iblk0 (F := Ideal) V c 0 t : Vec Ideal S10000x128 .f32) y = a z := by
  obtain ⟨e0, e1, -⟩ := idx0 t
  unfold iblk0
  rw [View.read_apply]
  show V c main_arg0 (((cfg0.win 0).blk t).view.emb y) = a z
  rw [ha]
  refine congrArg a (funext fun d => Fin.ext ?_)
  match d with
  | ⟨0, _⟩ => show win0_0.index t (0 : Fin 2) * 10000 + 1 * (y 0).val = (z 0).val; omega
  | ⟨1, _⟩ => show win0_0.index t (1 : Fin 2) * 128 + 1 * (y 1).val = (z 1).val; omega

/-- The right window's block at every point is the whole right operand. -/
theorem rblk0_apply (c : Dev nD) (t : Fin cfg0.N) (b : FVec Ideal Cert.ReferenceIdeal.S128x64 .f32)
    (hb : V c main_arg3 = b) (y : S128x64.Idx) :
    (iblk0 (F := Ideal) V c 1 t : Vec Ideal S128x64 .f32) y = b y := by
  obtain ⟨-, -, e0, e1, -⟩ := idx0 t
  unfold iblk0
  rw [View.read_apply]
  show V c main_arg3 (((cfg0.win 1).blk t).view.emb y) = b y
  rw [hb]
  refine congrArg b (funext fun d => Fin.ext ?_)
  match d with
  | ⟨0, _⟩ => show win0_1.index t (0 : Fin 2) * 128 + 1 * (y 0).val = (y 0).val; omega
  | ⟨1, _⟩ => show win0_1.index t (1 : Fin 2) * 64 + 1 * (y 1).val = (y 1).val; omega

/-- What point `t` writes back is block `t` of the whole product. -/
theorem flushed0_eq (c : Dev nD) (t : Fin cfg0.N)
    (a : FVec Ideal Cert.ReferenceIdeal.S100000x128 .f32) (b : FVec Ideal Cert.ReferenceIdeal.S128x64 .f32)
    (ha : V c main_arg0 = a) (hb : V c main_arg3 = b) :
    (dat0 (F := Ideal) V c).flushed 2 t
      = ((cfg0.win 2).blk t).view.read (Elt Ideal) (Host.dotGeneral (F := Ideal) Cert.ReferenceIdeal.dot_S100000x128_S128x64_S100000x64_1_0_0_1_n_n none a b) := by
  show (cfg0.win 2).cut (grid0.coords t) ((dat0 (F := Ideal) V c).after 2 t) = _
  rw [after0_2]
  unfold out0_2
  rw [View.canon_unit_zero zero_off0]
  simp only [View.ld_unit_zero (S := S10000x128) zero_off0, View.ld_unit_zero (S := S128x64) zero_off0]
  obtain ⟨-, -, -, -, e0, e1⟩ := idx0 t
  funext j
  show k0_pay1 (F := Ideal) (iblk0 (F := Ideal) V c 0 t) (iblk0 (F := Ideal) V c 1 t) ((cfg0.win 2).xinj (grid0.coords t) j)
    = Host.dotGeneral (F := Ideal) Cert.ReferenceIdeal.dot_S100000x128_S128x64_S100000x64_1_0_0_1_n_n none a b (((cfg0.win 2).blk t).view.emb j)
  refine point0 (iblk0 (F := Ideal) V c 0 t) (iblk0 (F := Ideal) V c 1 t) a b t.val
    ((cfg0.win 2).xinj (grid0.coords t) j) (((cfg0.win 2).blk t).view.emb j) ?_ ?_
    (fun y z hz0 hz1 => lblk0_apply V c t a ha y z hz0 hz1) (fun y => rblk0_apply V c t b hb y)
  · show win0_2.index t (0 : Fin 2) * 10000 + 1 * (j 0).val = t.val * 10000 + (j 0).val; omega
  · show win0_2.index t (1 : Fin 2) * 64 + 1 * (j 1).val = (j 1).val; omega

/-- An index of the output array is in point `t`'s block iff each coordinate is in the block's range on its axis. -/
theorem mem_blk0 (t : Fin cfg0.N) (i : S100000x64.Idx) :
    i ∈ ((cfg0.win 2).blk t).view.set ↔ ∀ d : Fin 2, win0_2.index t d * S10000x64.size d ≤ (i d).val ∧ (i d).val < win0_2.index t d * S10000x64.size d + S10000x64.size d := by
  show i ∈ ((View.whole main_v30).slice (win0_2.rect t)).set ↔ _
  rw [View.set_slice_whole, Rect.mem_set_unit]
  exact Iff.rfl

/-- Every row of the output is in the block of the point that is its number divided by 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e0, e1⟩ := idx0 t
  have ht : t.val = (i 0).val / 10000 := rfl
  refine ⟨t, flush0_2 t, ?_⟩
  rw [mem_blk0]
  intro d
  match d with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after region 0 is the host's product of the two input arrays as the region finds them. -/
theorem region0_eq (c : Dev nD) (a : FVec Ideal Cert.ReferenceIdeal.S100000x128 .f32) (b : FVec Ideal Cert.ReferenceIdeal.S128x64 .f32)
    (ha : V c main_arg0 = a) (hb : V c main_arg3 = b) :
    (dat0 (F := Ideal) V c).arrAt 2 cfg0.N = Host.dotGeneral (F := Ideal) Cert.ReferenceIdeal.dot_S100000x128_S128x64_S100000x64_1_0_0_1_n_n none a b :=
  (dat0 (F := Ideal) V c).arrAt_eq_of_cover 2 (Host.dotGeneral (F := Ideal) Cert.ReferenceIdeal.dot_S100000x128_S128x64_S100000x64_1_0_0_1_n_n none a b)
    (fun t _ => flushed0_eq V c t a b ha hb) (cover0)

end Cert.KernelIdeal.Bridge

end
-- ==== Proof.Region1.lean ====
/- The bias-and-ReLU region 1 of the two-layer graph network, as one statement about whole arrays: after the
   region, its output array holds max(x + b, 0) at every index, where x is the region's input array and b the bias
   row repeated down the rows; this is the host program's add of the broadcast bias followed by its maximum against
   the broadcast zero. The body's stored value is read at an index (the two shape casts are identities, the row
   broadcast reads row 0), each block of the output is that function of the input arrays restricted to the block's
   rows, and the ten blocks of 10000 rows cover the 100000 rows. -/
import proofs.«105349_j28750511080087_1_alg».proof.Proof.Gen.KernelIdeal.Frame
import proofs.«105349_j28750511080087_1_alg».proof.ReferenceIdeal
import proofs.«105349_j28750511080087_1_alg».proof.Proof.RefRun
import proofs.«105349_j28750511080087_1_alg».proof.Proof.RefRead
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as the constant function. -/
theorem zero_offsets1 : (![0, 0] : Fin 2 → Nat) = fun _ => 0 := funext fun a => by fin_cases a <;> rfl

/-- What region 1's output array ends holding: the input array plus the bias row at each row, then the maximum
    with zero, as the host program spells it. -/
abbrev biasRelu1 (x : FVec Ideal Cert.ReferenceIdeal.S100000x64 .f32)
    (x4 : FVec Ideal Cert.ReferenceIdeal.S64 .f32) :
    FVec Ideal Cert.ReferenceIdeal.S100000x64 .f32 :=
  maximumf (F := Ideal) (addf (F := Ideal) x (Cert.ReferenceIdeal.ReadP.val_main_v45 (F := Ideal) x4)) (Cert.ReferenceIdeal.ReadP.val_main_call1_v0 (F := Ideal))

/-- The body's stored value at an index (p, q) of the block is max(x0(p, q) + x1(0, q), 0); when x0(p, q) is the
    array's element at an index i whose column is q, and the bias row x1 is the bias vector, it is the host's
    function at i. -/
theorem payload1_at (x0 : Vec Ideal S10000x64 .f32) (x1 : Vec Ideal S1x64 .f32)
    (x : FVec Ideal Cert.ReferenceIdeal.S100000x64 .f32)
    (x4 : FVec Ideal Cert.ReferenceIdeal.S64 .f32)
    (h1 : ∀ q : Fin 64, x1 (ix2 (0 : Fin 1) q) = x4 (ix1 q))
    (j : S10000x64.Idx) (i : S100000x64.Idx) (h0 : x0 j = x i) (hi : (i 1).val = (j 1).val) :
    k1_pay1 (F := Ideal) x0 x1 j = biasRelu1 x x4 i := by
  obtain ⟨p, q, rfl⟩ : ∃ (p : Fin 10000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi
  subst hs
  have e : Cert.ReferenceIdeal.ReadP.idx_main_v44 (Cert.ReferenceIdeal.ReadP.idx_main_v45 (ix2 r s)) = ix1 s :=
    funext fun a => Fin.ext (by match a with | ⟨0, _⟩ => rfl)
  unfold k1_pay1
  show FloatOps.maximumf (F := Ideal) (φ := .f32) (FloatOps.addf (F := Ideal) (φ := .f32) (shapeCast S10000x64 x0 shapeCasts_S10000x64_S10000x64 (ix2 p s))
        (broadcastTo S10000x64 (shapeCast S1x64 x1 shapeCasts_S1x64_S1x64) broadcasts_S1x64_S10000x64 (ix2 p s)))
      (Scalar.ofBits .f32 0x00000000#32)
    = FloatOps.maximumf (F := Ideal) (φ := .f32) (FloatOps.addf (F := Ideal) (φ := .f32) (x (ix2 r s)) (Cert.ReferenceIdeal.ReadP.val_main_v45 (F := Ideal) x4 (ix2 r s)))
      (Cert.ReferenceIdeal.ReadP.val_main_call1_v0 (F := Ideal) (ix2 r s))
  rw [shapeCast_self, shapeCast_self, broadcastTo_1b_ab_apply, h0, h1,
    Cert.ReferenceIdeal.ReadP.val_main_v45_apply, Cert.ReferenceIdeal.ReadP.val_main_v44_apply,
    Cert.ReferenceIdeal.ReadP.val_main_call1_v0_apply, Cert.ReferenceIdeal.ReadP.val_main_call1_cst_apply, e]

/-- The printed index maps, decided over the grid: at point t the input's and the output's row blocks both sit at
    block index (t, 0), the bias row at (0, 0). -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b)) (c : Dev nD)

/-- What point t writes back is block t of the host's function of the input arrays. -/
theorem written_block1 (x : FVec Ideal Cert.ReferenceIdeal.S100000x64 .f32)
    (x4 : FVec Ideal Cert.ReferenceIdeal.S64 .f32)
    (hx : V c main_v43 = x) (hb : V c main_v44 = shapeCast S1x64 x4 shapeCasts_S64_S1x64) (t : Fin cfg1.N) :
    (dat1 (F := Ideal) V c).flushed 2 t = ((cfg1.win 2).blk t).view.read (Elt Ideal) (biasRelu1 x x4) := by
  show (cfg1.win 2).cut (grid1.coords t) ((dat1 V c).after 2 t) = _
  rw [after1_2]
  unfold out1_2
  rw [View.canon_unit_zero zero_offsets1]
  simp only [View.ld_unit_zero (S := S10000x64) zero_offsets1, View.ld_unit_zero (S := S1x64) zero_offsets1]
  obtain ⟨e0, e1, e2, e3, e4, e5⟩ := block_index1 t
  funext j
  show k1_pay1 (F := Ideal) (iblk1 V c 0 t) (iblk1 V c 1 t) j = biasRelu1 x x4 (((cfg1.win 2).blk t).view.emb j)
  refine payload1_at _ _ x x4 (fun q => ?_) j _ ?_ ?_
  · -- the bias row's block is the whole [1, 64] array, the host's reshape of the bias vector
    show V c main_v44 (((cfg1.win 1).blk t).view.emb (ix2 (0 : Fin 1) q)) = x4 (ix1 q)
    rw [hb]
    have hq : ((cfg1.win 1).blk t).view.emb (ix2 (0 : Fin 1) q) = ix2 (0 : Fin 1) q := by
      funext a; apply Fin.ext
      match a with
      | ⟨0, _⟩ => show win1_1.index t (0 : Fin 2) * 1 + 1 * 0 = 0; omega
      | ⟨1, _⟩ => show win1_1.index t (1 : Fin 2) * 64 + 1 * q.val = q.val; omega
    rw [hq]
    exact shapeCast_a_1a_apply x4 shapeCasts_S64_S1x64 (0 : Fin 1) q
  · -- the input's block and the output's block at point t are the same rows
    show V c main_v43 (((cfg1.win 0).blk t).view.emb j) = x (((cfg1.win 2).blk t).view.emb j)
    rw [hx]
    refine congrArg x (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · show win1_2.index t (1 : Fin 2) * 64 + 1 * (j 1).val = (j 1).val
    omega

/-- An index of the array is in point t's block iff each coordinate is in the block's range on its axis. -/
theorem mem_out_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Row r of the array is in the block of point r / 10000: the ten blocks of 10000 rows cover the 100000 rows. -/
theorem out_blocks_cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  let t : Fin cfg1.N := ⟨(i 0).val / 10000, by show (i 0).val / 10000 < grid1.N; rw [hN]; omega⟩
  have ht : t.val = (i 0).val / 10000 := rfl
  obtain ⟨e0, e1, e2, e3, e4, e5⟩ := block_index1 t
  refine ⟨t, flush1_2 t, ?_⟩
  rw [mem_out_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

end

/-- Region 1's output array after the region is the host's bias add and ReLU of its input arrays. -/
theorem region1_eq (V : (c : Dev nD) → (b : Ref sig .tc) → Buf (Elt Ideal) ((c : Thread nD τ).loc b)) (c : Dev nD)
    (x : FVec Ideal Cert.ReferenceIdeal.S100000x64 .f32)
    (x4 : FVec Ideal Cert.ReferenceIdeal.S64 .f32)
    (hx : V c main_v43 = x) (h4 : V c main_v44 = shapeCast S1x64 x4 shapeCasts_S64_S1x64) :
    (dat1 (F := Ideal) V c).arrAt 2 cfg1.N = maximumf (F := Ideal) (addf (F := Ideal) x (Cert.ReferenceIdeal.ReadP.val_main_v45 (F := Ideal) x4)) (Cert.ReferenceIdeal.ReadP.val_main_call1_v0 (F := Ideal)) :=
  (dat1 (F := Ideal) V c).arrAt_eq_of_cover 2 (biasRelu1 x x4) (fun t _ => written_block1 V c x x4 hx h4 t) (fun i => out_blocks_cover1 i)

end Cert.KernelIdeal.Bridge

end
-- ==== Proof.Region2.lean ====
/-
  The second matrix product, region 2 of the kernel's program: ten grid points, point t taking rows 10000 t … 10000 t + 9999
  of the 100000 × 64 left array and the whole 64 × 64 right operand, and storing their product (the leading shape cast
  is to the same shape, rounding to bf16 and back is the identity on extended reals, and the accumulator starts at
  zero) as rows 10000 t … of the output. Each stored element is a sum over the 64 contraction coordinates of a row of
  the left block times a column of the right operand; the host's dot_general of the whole arrays is, element by
  element, the same sum; the ten row blocks cover the output. So the output array after the region is the host's
  product of the region's input arrays.
-/
import proofs.«105349_j28750511080087_1_alg».proof.Proof.Gen.KernelIdeal.Frame
import proofs.«105349_j28750511080087_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.Pipeline (Dat)
open scoped BigOperators

/-- The offsets of a whole-buffer access, spelt as the zero function. -/
theorem zero_off2 : (![0, 0] : Fin 2 → Nat) = fun _ => 0 := funext fun a => by fin_cases a <;> rfl

/-! ## The two products at an index: the same sum over the 64 contraction coordinates -/

/-- The block product's left operand index at output index `i` and contraction index `q`: row `i 0` … -/
theorem klhs2_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … column the contraction coordinate. -/
theorem klhs2_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- Its right operand index: row the contraction coordinate … -/
theorem krhs2_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … column `i 1`. -/
theorem krhs2_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product read at row `p`, column `q`: the accumulator is the zero splat and the format changes are the
    identity on extended reals, so what is left is the sum over `k` of row `p` of the left block times column `q` of the
    right operand. -/
theorem kmat2_apply (x0 : FVec Ideal S10000x64 .f32) (x1 : FVec Ideal S64x64 .f32) (p : Fin 10000) (q : Fin 64) :
    FloatOps.matmul dot_S10000x64_S64x64_S10000x64_1_0_0_1_n_n none (truncf .bf16 x0 bitsLt_bf16_f32 : FVec Ideal S10000x64 .bf16) (truncf .bf16 x1 bitsLt_bf16_f32 : FVec Ideal S64x64 .bf16)
        (constant S10000x64 .f32 0x00000000#32) (ValueIdx.ix2 p q)
      = ∑ k : Fin 64, x0 (ValueIdx.ix2 p k) * x1 (ValueIdx.ix2 k q) := by
  refine (Ideal.matmul_constant_zero_apply dot_S10000x64_S64x64_S10000x64_1_0_0_1_n_n none _ _ (ValueIdx.ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ValueIdx.ix2 p q) ((ValueIdx.contrEquiv1 dot_S10000x64_S64x64_S10000x64_1_0_0_1_n_n 64 rfl rfl).symm k) = ValueIdx.ix2 p k := funext fun a => Fin.ext (by
    match a with
    | ⟨0, _⟩ => exact klhs2_0 _ _
    | ⟨1, _⟩ => exact (klhs2_1 _ _).trans hk)
  have er : dot_S10000x64_S64x64_S10000x64_1_0_0_1_n_n.rhsIdx (ValueIdx.ix2 p q) ((ValueIdx.contrEquiv1 dot_S10000x64_S64x64_S10000x64_1_0_0_1_n_n 64 rfl rfl).symm k) = ValueIdx.ix2 k q := funext fun a => Fin.ext (by
    match a with
    | ⟨0, _⟩ => exact (krhs2_0 _ _).trans hk
    | ⟨1, _⟩ => exact krhs2_1 _ _)
  rw [el, er]
  rfl

/-- The kernel body's stored value at row `p`, column `q` of its block. -/
theorem pay2_apply (x0 : Vec Ideal S10000x64 .f32) (x1 : Vec Ideal S64x64 .f32) (p : Fin 10000) (q : Fin 64) :
    k2_pay1 (F := Ideal) x0 x1 (ValueIdx.ix2 p q) = ∑ k : Fin 64, x0 (ValueIdx.ix2 p k) * x1 (ValueIdx.ix2 k q) := by
  unfold k2_pay1
  simp only [shapeCast_self]
  exact kmat2_apply x0 x1 p q

/-- The whole-array product's operand indices, as for the block product. -/
theorem rlhs2_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem rlhs2_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rrhs2_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rrhs2_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The host's product of the whole arrays read at row `r`, column `q`: the same sum, over row `r` of the whole left array. -/
theorem ref2_apply (a : FVec Ideal Cert.ReferenceIdeal.S100000x64 .f32) (b : FVec Ideal Cert.ReferenceIdeal.S64x64 .f32)
    (r : Fin 100000) (q : Fin 64) :
    Host.dotGeneral (F := Ideal) Cert.ReferenceIdeal.dot_S100000x64_S64x64_S100000x64_1_0_0_1_n_n none a b (ValueIdx.ix2 r q)
      = ∑ k : Fin 64, a (ValueIdx.ix2 r k) * b (ValueIdx.ix2 k q) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ValueIdx.ix2 r q) ((ValueIdx.contrEquiv1 Cert.ReferenceIdeal.dot_S100000x64_S64x64_S100000x64_1_0_0_1_n_n 64 rfl rfl).symm k) = ValueIdx.ix2 r k := funext fun a => Fin.ext (by
    match a with
    | ⟨0, _⟩ => exact rlhs2_0 _ _
    | ⟨1, _⟩ => exact (rlhs2_1 _ _).trans hk)
  have er : Cert.ReferenceIdeal.dot_S100000x64_S64x64_S100000x64_1_0_0_1_n_n.rhsIdx (ValueIdx.ix2 r q) ((ValueIdx.contrEquiv1 Cert.ReferenceIdeal.dot_S100000x64_S64x64_S100000x64_1_0_0_1_n_n 64 rfl rfl).symm k) = ValueIdx.ix2 k q := funext fun a => Fin.ext (by
    match a with
    | ⟨0, _⟩ => exact (rrhs2_0 _ _).trans hk
    | ⟨1, _⟩ => exact rrhs2_1 _ _)
  rw [el, er]

/-! ## A grid point's stored block is that point's rows of the whole product -/

/-- What a grid point stores, at a block index `j`, is the whole product at the array index `i` that sits `T` blocks of
    10000 rows further down: the left block's rows are those rows of the whole left array (`h0`), the right operand is
    whole (`h1`), and the two sums are then term by term the same. -/
theorem point2 (x0 : Vec Ideal S10000x64 .f32) (x1 : Vec Ideal S64x64 .f32)
    (a : FVec Ideal Cert.ReferenceIdeal.S100000x64 .f32) (b : FVec Ideal Cert.ReferenceIdeal.S64x64 .f32)
    (T : Nat) (j : S10000x64.Idx) (i : Cert.ReferenceIdeal.S100000x64.Idx)
    (hi0 : (i 0).val = T * 10000 + (j 0).val) (hi1 : (i 1).val = (j 1).val)
    (h0 : ∀ (y : S10000x64.Idx) (z : Cert.ReferenceIdeal.S100000x64.Idx), (z 0).val = T * 10000 + (y 0).val → (z 1).val = (y 1).val → x0 y = a z)
    (h1 : ∀ (y : S64x64.Idx), x1 y = b y) :
    k2_pay1 (F := Ideal) x0 x1 j = Host.dotGeneral (F := Ideal) Cert.ReferenceIdeal.dot_S100000x64_S64x64_S100000x64_1_0_0_1_n_n none a b i := by
  obtain ⟨p, q, rfl⟩ : ∃ (p : Fin 10000) (q : Fin 64), j = ValueIdx.ix2 p q := ⟨j 0, j 1, ValueIdx.eq_ix2 j⟩
  obtain ⟨r, q', rfl⟩ : ∃ (r : Fin 100000) (q' : Fin 64), i = ValueIdx.ix2 r q' := ⟨i 0, i 1, ValueIdx.eq_ix2 i⟩
  have hr : r.val = T * 10000 + p.val := hi0
  have hq : q = q' := (Fin.ext hi1).symm
  subst hq
  rw [pay2_apply, ref2_apply]
  refine Finset.sum_congr rfl fun k _ => ?_
  rw [h0 (ValueIdx.ix2 p k) (ValueIdx.ix2 r k) hr rfl, h1 (ValueIdx.ix2 k q)]

/-! ## From the blocks to the array -/

/-- The index maps, decided over the ten grid points: point `t` takes row block `t` of the left array and of the output,
    and the right operand whole. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The left window's block at point `t` is rows `10000 t … 10000 t + 9999` of the left array. -/
theorem lblk2_apply (c : Dev nD) (t : Fin cfg2.N) (a : FVec Ideal Cert.ReferenceIdeal.S100000x64 .f32)
    (ha : V c main_v45 = a) (y : S10000x64.Idx) (z : Cert.ReferenceIdeal.S100000x64.Idx)
    (hz0 : (z 0).val = t.val * 10000 + (y 0).val) (hz1 : (z 1).val = (y 1).val) :
    (iblk2 (F := Ideal) V c 0 t : Vec Ideal S10000x64 .f32) y = a z := by
  obtain ⟨e0, e1, -⟩ := idx2 t
  unfold iblk2
  rw [View.read_apply]
  show V c main_v45 (((cfg2.win 0).blk t).view.emb y) = a z
  rw [ha]
  refine congrArg a (funext fun d => Fin.ext ?_)
  match d with
  | ⟨0, _⟩ => show win2_0.index t (0 : Fin 2) * 10000 + 1 * (y 0).val = (z 0).val; omega
  | ⟨1, _⟩ => show win2_0.index t (1 : Fin 2) * 64 + 1 * (y 1).val = (z 1).val; omega

/-- The right window's block at every point is the whole right operand. -/
theorem rblk2_apply (c : Dev nD) (t : Fin cfg2.N) (b : FVec Ideal Cert.ReferenceIdeal.S64x64 .f32)
    (hb : V c main_arg5 = b) (y : S64x64.Idx) :
    (iblk2 (F := Ideal) V c 1 t : Vec Ideal S64x64 .f32) y = b y := by
  obtain ⟨-, -, e0, e1, -⟩ := idx2 t
  unfold iblk2
  rw [View.read_apply]
  show V c main_arg5 (((cfg2.win 1).blk t).view.emb y) = b y
  rw [hb]
  refine congrArg b (funext fun d => Fin.ext ?_)
  match d with
  | ⟨0, _⟩ => show win2_1.index t (0 : Fin 2) * 64 + 1 * (y 0).val = (y 0).val; omega
  | ⟨1, _⟩ => show win2_1.index t (1 : Fin 2) * 64 + 1 * (y 1).val = (y 1).val; omega

/-- What point `t` writes back is block `t` of the whole product. -/
theorem flushed2_eq (c : Dev nD) (t : Fin cfg2.N)
    (a : FVec Ideal Cert.ReferenceIdeal.S100000x64 .f32) (b : FVec Ideal Cert.ReferenceIdeal.S64x64 .f32)
    (ha : V c main_v45 = a) (hb : V c main_arg5 = b) :
    (dat2 (F := Ideal) V c).flushed 2 t
      = ((cfg2.win 2).blk t).view.read (Elt Ideal) (Host.dotGeneral (F := Ideal) Cert.ReferenceIdeal.dot_S100000x64_S64x64_S100000x64_1_0_0_1_n_n none a b) := by
  show (cfg2.win 2).cut (grid2.coords t) ((dat2 (F := Ideal) V c).after 2 t) = _
  rw [after2_2]
  unfold out2_2
  rw [View.canon_unit_zero zero_off2]
  simp only [View.ld_unit_zero (S := S10000x64) zero_off2, View.ld_unit_zero (S := S64x64) zero_off2]
  obtain ⟨-, -, -, -, e0, e1⟩ := idx2 t
  funext j
  show k2_pay1 (F := Ideal) (iblk2 (F := Ideal) V c 0 t) (iblk2 (F := Ideal) V c 1 t) ((cfg2.win 2).xinj (grid2.coords t) j)
    = Host.dotGeneral (F := Ideal) Cert.ReferenceIdeal.dot_S100000x64_S64x64_S100000x64_1_0_0_1_n_n none a b (((cfg2.win 2).blk t).view.emb j)
  refine point2 (iblk2 (F := Ideal) V c 0 t) (iblk2 (F := Ideal) V c 1 t) a b t.val
    ((cfg2.win 2).xinj (grid2.coords t) j) (((cfg2.win 2).blk t).view.emb j) ?_ ?_
    (fun y z hz0 hz1 => lblk2_apply V c t a ha y z hz0 hz1) (fun y => rblk2_apply V c t b hb y)
  · show win2_2.index t (0 : Fin 2) * 10000 + 1 * (j 0).val = t.val * 10000 + (j 0).val; omega
  · show win2_2.index t (1 : Fin 2) * 64 + 1 * (j 1).val = (j 1).val; omega

/-- An index of the output array is in point `t`'s block iff each coordinate is in the block's range on its axis. -/
theorem mem_blk2 (t : Fin cfg2.N) (i : S100000x64.Idx) :
    i ∈ ((cfg2.win 2).blk t).view.set ↔ ∀ d : Fin 2, win2_2.index t d * S10000x64.size d ≤ (i d).val ∧ (i d).val < win2_2.index t d * S10000x64.size d + S10000x64.size d := by
  show i ∈ ((View.whole main_v46).slice (win2_2.rect t)).set ↔ _
  rw [View.set_slice_whole, Rect.mem_set_unit]
  exact Iff.rfl

/-- Every row of the output is in the block of the point that is its number divided by 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨-, -, -, -, e0, e1⟩ := idx2 t
  have ht : t.val = (i 0).val / 10000 := rfl
  refine ⟨t, flush2_2 t, ?_⟩
  rw [mem_blk2]
  intro d
  match d with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after region 2 is the host's product of the two input arrays as the region finds them. -/
theorem region2_eq (c : Dev nD) (a : FVec Ideal Cert.ReferenceIdeal.S100000x64 .f32) (b : FVec Ideal Cert.ReferenceIdeal.S64x64 .f32)
    (ha : V c main_v45 = a) (hb : V c main_arg5 = b) :
    (dat2 (F := Ideal) V c).arrAt 2 cfg2.N = Host.dotGeneral (F := Ideal) Cert.ReferenceIdeal.dot_S100000x64_S64x64_S100000x64_1_0_0_1_n_n none a b :=
  (dat2 (F := Ideal) V c).arrAt_eq_of_cover 2 (Host.dotGeneral (F := Ideal) Cert.ReferenceIdeal.dot_S100000x64_S64x64_S100000x64_1_0_0_1_n_n none a b)
    (fun t _ => flushed2_eq V c t a b ha hb) (cover2)

end Cert.KernelIdeal.Bridge

end
-- ==== Proof.Region3.lean ====
/- The bias-and-ReLU region 3 of the two-layer graph network, as one statement about whole arrays: after the
   region, its output array holds max(x + b, 0) at every index, where x is the region's input array and b the bias
   row repeated down the rows; this is the host program's add of the broadcast bias followed by its maximum against
   the broadcast zero. The body's stored value is read at an index (the two shape casts are identities, the row
   broadcast reads row 0), each block of the output is that function of the input arrays restricted to the block's
   rows, and the ten blocks of 10000 rows cover the 100000 rows. -/
import proofs.«105349_j28750511080087_1_alg».proof.Proof.Gen.KernelIdeal.Frame
import proofs.«105349_j28750511080087_1_alg».proof.ReferenceIdeal
import proofs.«105349_j28750511080087_1_alg».proof.Proof.RefRun
import proofs.«105349_j28750511080087_1_alg».proof.Proof.RefRead
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as the constant function. -/
theorem zero_offsets3 : (![0, 0] : Fin 2 → Nat) = fun _ => 0 := funext fun a => by fin_cases a <;> rfl

/-- What region 3's output array ends holding: the input array plus the bias row at each row, then the maximum
    with zero, as the host program spells it. -/
abbrev biasRelu3 (x : FVec Ideal Cert.ReferenceIdeal.S100000x64 .f32)
    (x6 : FVec Ideal Cert.ReferenceIdeal.S64 .f32) :
    FVec Ideal Cert.ReferenceIdeal.S100000x64 .f32 :=
  maximumf (F := Ideal) (addf (F := Ideal) x (Cert.ReferenceIdeal.ReadP.val_main_v78 (F := Ideal) x6)) (Cert.ReferenceIdeal.ReadP.val_main_call2_v0 (F := Ideal))

/-- The body's stored value at an index (p, q) of the block is max(x0(p, q) + x1(0, q), 0); when x0(p, q) is the
    array's element at an index i whose column is q, and the bias row x1 is the bias vector, it is the host's
    function at i. -/
theorem payload3_at (x0 : Vec Ideal S10000x64 .f32) (x1 : Vec Ideal S1x64 .f32)
    (x : FVec Ideal Cert.ReferenceIdeal.S100000x64 .f32)
    (x6 : FVec Ideal Cert.ReferenceIdeal.S64 .f32)
    (h1 : ∀ q : Fin 64, x1 (ix2 (0 : Fin 1) q) = x6 (ix1 q))
    (j : S10000x64.Idx) (i : S100000x64.Idx) (h0 : x0 j = x i) (hi : (i 1).val = (j 1).val) :
    k3_pay1 (F := Ideal) x0 x1 j = biasRelu3 x x6 i := by
  obtain ⟨p, q, rfl⟩ : ∃ (p : Fin 10000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi
  subst hs
  have e : Cert.ReferenceIdeal.ReadP.idx_main_v77 (Cert.ReferenceIdeal.ReadP.idx_main_v78 (ix2 r s)) = ix1 s :=
    funext fun a => Fin.ext (by match a with | ⟨0, _⟩ => rfl)
  unfold k3_pay1
  show FloatOps.maximumf (F := Ideal) (φ := .f32) (FloatOps.addf (F := Ideal) (φ := .f32) (shapeCast S10000x64 x0 shapeCasts_S10000x64_S10000x64 (ix2 p s))
        (broadcastTo S10000x64 (shapeCast S1x64 x1 shapeCasts_S1x64_S1x64) broadcasts_S1x64_S10000x64 (ix2 p s)))
      (Scalar.ofBits .f32 0x00000000#32)
    = FloatOps.maximumf (F := Ideal) (φ := .f32) (FloatOps.addf (F := Ideal) (φ := .f32) (x (ix2 r s)) (Cert.ReferenceIdeal.ReadP.val_main_v78 (F := Ideal) x6 (ix2 r s)))
      (Cert.ReferenceIdeal.ReadP.val_main_call2_v0 (F := Ideal) (ix2 r s))
  rw [shapeCast_self, shapeCast_self, broadcastTo_1b_ab_apply, h0, h1,
    Cert.ReferenceIdeal.ReadP.val_main_v78_apply, Cert.ReferenceIdeal.ReadP.val_main_v77_apply,
    Cert.ReferenceIdeal.ReadP.val_main_call2_v0_apply, Cert.ReferenceIdeal.ReadP.val_main_call2_cst_apply, e]

/-- The printed index maps, decided over the grid: at point t the input's and the output's row blocks both sit at
    block index (t, 0), the bias row at (0, 0). -/
theorem block_index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b)) (c : Dev nD)

/-- What point t writes back is block t of the host's function of the input arrays. -/
theorem written_block3 (x : FVec Ideal Cert.ReferenceIdeal.S100000x64 .f32)
    (x6 : FVec Ideal Cert.ReferenceIdeal.S64 .f32)
    (hx : V c main_v59 = x) (hb : V c main_v60 = shapeCast S1x64 x6 shapeCasts_S64_S1x64) (t : Fin cfg3.N) :
    (dat3 (F := Ideal) V c).flushed 2 t = ((cfg3.win 2).blk t).view.read (Elt Ideal) (biasRelu3 x x6) := by
  show (cfg3.win 2).cut (grid3.coords t) ((dat3 V c).after 2 t) = _
  rw [after3_2]
  unfold out3_2
  rw [View.canon_unit_zero zero_offsets3]
  simp only [View.ld_unit_zero (S := S10000x64) zero_offsets3, View.ld_unit_zero (S := S1x64) zero_offsets3]
  obtain ⟨e0, e1, e2, e3, e4, e5⟩ := block_index3 t
  funext j
  show k3_pay1 (F := Ideal) (iblk3 V c 0 t) (iblk3 V c 1 t) j = biasRelu3 x x6 (((cfg3.win 2).blk t).view.emb j)
  refine payload3_at _ _ x x6 (fun q => ?_) j _ ?_ ?_
  · -- the bias row's block is the whole [1, 64] array, the host's reshape of the bias vector
    show V c main_v60 (((cfg3.win 1).blk t).view.emb (ix2 (0 : Fin 1) q)) = x6 (ix1 q)
    rw [hb]
    have hq : ((cfg3.win 1).blk t).view.emb (ix2 (0 : Fin 1) q) = ix2 (0 : Fin 1) q := by
      funext a; apply Fin.ext
      match a with
      | ⟨0, _⟩ => show win3_1.index t (0 : Fin 2) * 1 + 1 * 0 = 0; omega
      | ⟨1, _⟩ => show win3_1.index t (1 : Fin 2) * 64 + 1 * q.val = q.val; omega
    rw [hq]
    exact shapeCast_a_1a_apply x6 shapeCasts_S64_S1x64 (0 : Fin 1) q
  · -- the input's block and the output's block at point t are the same rows
    show V c main_v59 (((cfg3.win 0).blk t).view.emb j) = x (((cfg3.win 2).blk t).view.emb j)
    rw [hx]
    refine congrArg x (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  · show win3_2.index t (1 : Fin 2) * 64 + 1 * (j 1).val = (j 1).val
    omega

/-- An index of the array is in point t's block iff each coordinate is in the block's range on its axis. -/
theorem mem_out_block3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- Row r of the array is in the block of point r / 10000: the ten blocks of 10000 rows cover the 100000 rows. -/
theorem out_blocks_cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := N_3
  let t : Fin cfg3.N := ⟨(i 0).val / 10000, by show (i 0).val / 10000 < grid3.N; rw [hN]; omega⟩
  have ht : t.val = (i 0).val / 10000 := rfl
  obtain ⟨e0, e1, e2, e3, e4, e5⟩ := block_index3 t
  refine ⟨t, flush3_2 t, ?_⟩
  rw [mem_out_block3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

end

/-- Region 3's output array after the region is the host's bias add and ReLU of its input arrays. -/
theorem region3_eq (V : (c : Dev nD) → (b : Ref sig .tc) → Buf (Elt Ideal) ((c : Thread nD τ).loc b)) (c : Dev nD)
    (x : FVec Ideal Cert.ReferenceIdeal.S100000x64 .f32)
    (x6 : FVec Ideal Cert.ReferenceIdeal.S64 .f32)
    (hx : V c main_v59 = x) (h6 : V c main_v60 = shapeCast S1x64 x6 shapeCasts_S64_S1x64) :
    (dat3 (F := Ideal) V c).arrAt 2 cfg3.N = maximumf (F := Ideal) (addf (F := Ideal) x (Cert.ReferenceIdeal.ReadP.val_main_v78 (F := Ideal) x6)) (Cert.ReferenceIdeal.ReadP.val_main_call2_v0 (F := Ideal)) :=
  (dat3 (F := Ideal) V c).arrAt_eq_of_cover 2 (biasRelu3 x x6) (fun t _ => written_block3 V c x x6 hx h6 t) (fun i => out_blocks_cover3 i)

end Cert.KernelIdeal.Bridge

end
-- ==== Proof.Region4.lean ====
/-
  The last region of the kernel's program, a matrix product plus a bias row: ONE grid point, every window its whole
  array. The point stores, at row p and column q of the 512 × 2 output, the sum over the 64 contraction coordinates of
  row p of the 512 × 64 left array times column q of the 64 × 2 right operand (the leading shape casts are to the same
  shapes, rounding to bf16 and back is the identity on extended reals, the accumulator starts at zero), plus entry
  (0, q) of the [1, 2] bias row broadcast down the 512 rows. The bias row is the host's reshape of a [2] array, so
  entry (0, q) is that array's entry q. On the reference's side the host's dot_general of the whole arrays is the same
  sum and its two broadcasts of the [2] array read entry q as well. The one block covers the output, so the output
  array after the region is the host's product of the input arrays plus the broadcast bias.
-/
import proofs.«105349_j28750511080087_1_alg».proof.Proof.Gen.KernelIdeal.Frame
import proofs.«105349_j28750511080087_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.Pipeline (Dat)
open scoped BigOperators

/-- The offsets of a whole-buffer access, spelt as the zero function. -/
theorem zero_off4 : (![0, 0] : Fin 2 → Nat) = fun _ => 0 := funext fun a => by fin_cases a <;> rfl

/-! ## The two products at an index: the same sum over the 64 contraction coordinates -/

/- The kernel's product: its operand indices at output index `i` and contraction index `q` are (row `i 0`, the contraction
   coordinate) and (the contraction coordinate, column `i 1`). -/
theorem klhs4_0 (i : S512x2.Idx) (q : dot_S512x64_S64x2_S512x2_1_0_0_1_n_n.contr.Idx) :
    (dot_S512x64_S64x2_S512x2_1_0_0_1_n_n.lhsIdx i q 0).val = (i 0).val := by
  unfold DotDims.lhsIdx
  rw [dif_neg (show ¬(0 : Fin S512x64.rank) ∈ dot_S512x64_S64x2_S512x2_1_0_0_1_n_n.lhsBatch by decide), dif_pos (show (0 : Fin S512x64.rank) ∈ dot_S512x64_S64x2_S512x2_1_0_0_1_n_n.lhsNonContracting by decide)]
  rfl
theorem klhs4_1 (i : S512x2.Idx) (q : dot_S512x64_S64x2_S512x2_1_0_0_1_n_n.contr.Idx) :
    (dot_S512x64_S64x2_S512x2_1_0_0_1_n_n.lhsIdx i q 1).val = (q ⟨0, by decide⟩).val :=
  dot_S512x64_S64x2_S512x2_1_0_0_1_n_n.lhsIdx_val_of_single rfl i q
theorem krhs4_0 (i : S512x2.Idx) (q : dot_S512x64_S64x2_S512x2_1_0_0_1_n_n.contr.Idx) :
    (dot_S512x64_S64x2_S512x2_1_0_0_1_n_n.rhsIdx i q 0).val = (q ⟨0, by decide⟩).val :=
  dot_S512x64_S64x2_S512x2_1_0_0_1_n_n.rhsIdx_val_of_single rfl i q
theorem krhs4_1 (i : S512x2.Idx) (q : dot_S512x64_S64x2_S512x2_1_0_0_1_n_n.contr.Idx) :
    (dot_S512x64_S64x2_S512x2_1_0_0_1_n_n.rhsIdx i q 1).val = (i 1).val := by
  unfold DotDims.rhsIdx
  rw [dif_neg (show ¬(1 : Fin S64x2.rank) ∈ dot_S512x64_S64x2_S512x2_1_0_0_1_n_n.rhsBatch by decide), dif_pos (show (1 : Fin S64x2.rank) ∈ dot_S512x64_S64x2_S512x2_1_0_0_1_n_n.rhsNonContracting by decide)]
  rfl

/-- The kernel's product read at row `p`, column `q`: the accumulator is the zero splat and the format changes are the
    identity on extended reals, so what is left is the sum over `k` of row `p` of the left array times column `q` of the
    right operand. -/
theorem kmat4_apply (x0 : FVec Ideal S512x64 .f32) (x1 : FVec Ideal S64x2 .f32) (p : Fin 512) (q : Fin 2) :
    FloatOps.matmul dot_S512x64_S64x2_S512x2_1_0_0_1_n_n none (truncf .bf16 x0 bitsLt_bf16_f32 : FVec Ideal S512x64 .bf16) (truncf .bf16 x1 bitsLt_bf16_f32 : FVec Ideal S64x2 .bf16)
        (constant S512x2 .f32 0x00000000#32) (ValueIdx.ix2 p q)
      = ∑ k : Fin 64, x0 (ValueIdx.ix2 p k) * x1 (ValueIdx.ix2 k q) := by
  refine (Ideal.matmul_constant_zero_apply dot_S512x64_S64x2_S512x2_1_0_0_1_n_n none _ _ (ValueIdx.ix2 p q)).trans ?_
  rw [← Equiv.sum_comp (ValueIdx.contrEquiv1 dot_S512x64_S64x2_S512x2_1_0_0_1_n_n 64 rfl rfl).symm]
  refine Finset.sum_congr rfl fun k _ => ?_
  have hk := ValueIdx.contrEquiv1_symm_val dot_S512x64_S64x2_S512x2_1_0_0_1_n_n 64 rfl rfl k
  have el : dot_S512x64_S64x2_S512x2_1_0_0_1_n_n.lhsIdx (ValueIdx.ix2 p q) ((ValueIdx.contrEquiv1 dot_S512x64_S64x2_S512x2_1_0_0_1_n_n 64 rfl rfl).symm k) = ValueIdx.ix2 p k := funext fun a => Fin.ext (by
    match a with
    | ⟨0, _⟩ => exact klhs4_0 _ _
    | ⟨1, _⟩ => exact (klhs4_1 _ _).trans hk)
  have er : dot_S512x64_S64x2_S512x2_1_0_0_1_n_n.rhsIdx (ValueIdx.ix2 p q) ((ValueIdx.contrEquiv1 dot_S512x64_S64x2_S512x2_1_0_0_1_n_n 64 rfl rfl).symm k) = ValueIdx.ix2 k q := funext fun a => Fin.ext (by
    match a with
    | ⟨0, _⟩ => exact (krhs4_0 _ _).trans hk
    | ⟨1, _⟩ => exact krhs4_1 _ _)
  rw [el, er]
  rfl

/-- The kernel body's stored value at row `p`, column `q`: that sum plus the bias row's entry in column `q`. -/
theorem pay4_apply (x0 : Vec Ideal S512x64 .f32) (x1 : Vec Ideal S64x2 .f32) (x2 : Vec Ideal S1x2 .f32) (p : Fin 512) (q : Fin 2) :
    k4_pay1 (F := Ideal) x0 x1 x2 (ValueIdx.ix2 p q)
      = (∑ k : Fin 64, x0 (ValueIdx.ix2 p k) * x1 (ValueIdx.ix2 k q)) + x2 (ValueIdx.ix2 ⟨0, Nat.one_pos⟩ q) := by
  unfold k4_pay1
  simp only [shapeCast_self, ValueIdx.addf_apply]
  refine congrArg₂ (· + ·) (kmat4_apply x0 x1 p q) ?_
  exact broadcastTo_apply x2 broadcasts_S1x2_S512x2 (ValueIdx.ix2 p q) (ValueIdx.ix2 ⟨0, Nat.one_pos⟩ q) (fun d => match d with
    | ⟨0, _⟩ => by show 0 = if (1 : Nat) = 1 then 0 else p.val; rw [if_pos rfl]
    | ⟨1, _⟩ => by show q.val = if (2 : Nat) = 1 then 0 else q.val; rw [if_neg (by decide)])

/- The host's product: the same operand indices. -/
theorem rlhs4_0 (i : Cert.ReferenceIdeal.S512x2.Idx) (q : Cert.ReferenceIdeal.dot_S512x64_S64x2_S512x2_1_0_0_1_n_n.contr.Idx) :
    (Cert.ReferenceIdeal.dot_S512x64_S64x2_S512x2_1_0_0_1_n_n.lhsIdx i q 0).val = (i 0).val := by
  unfold DotDims.lhsIdx
  rw [dif_neg (show ¬(0 : Fin Cert.ReferenceIdeal.S512x64.rank) ∈ Cert.ReferenceIdeal.dot_S512x64_S64x2_S512x2_1_0_0_1_n_n.lhsBatch by decide), dif_pos (show (0 : Fin Cert.ReferenceIdeal.S512x64.rank) ∈ Cert.ReferenceIdeal.dot_S512x64_S64x2_S512x2_1_0_0_1_n_n.lhsNonContracting by decide)]
  rfl
theorem rlhs4_1 (i : Cert.ReferenceIdeal.S512x2.Idx) (q : Cert.ReferenceIdeal.dot_S512x64_S64x2_S512x2_1_0_0_1_n_n.contr.Idx) :
    (Cert.ReferenceIdeal.dot_S512x64_S64x2_S512x2_1_0_0_1_n_n.lhsIdx i q 1).val = (q ⟨0, by decide⟩).val :=
  Cert.ReferenceIdeal.dot_S512x64_S64x2_S512x2_1_0_0_1_n_n.lhsIdx_val_of_single rfl i q
theorem rrhs4_0 (i : Cert.ReferenceIdeal.S512x2.Idx) (q : Cert.ReferenceIdeal.dot_S512x64_S64x2_S512x2_1_0_0_1_n_n.contr.Idx) :
    (Cert.ReferenceIdeal.dot_S512x64_S64x2_S512x2_1_0_0_1_n_n.rhsIdx i q 0).val = (q ⟨0, by decide⟩).val :=
  Cert.ReferenceIdeal.dot_S512x64_S64x2_S512x2_1_0_0_1_n_n.rhsIdx_val_of_single rfl i q
theorem rrhs4_1 (i : Cert.ReferenceIdeal.S512x2.Idx) (q : Cert.ReferenceIdeal.dot_S512x64_S64x2_S512x2_1_0_0_1_n_n.contr.Idx) :
    (Cert.ReferenceIdeal.dot_S512x64_S64x2_S512x2_1_0_0_1_n_n.rhsIdx i q 1).val = (i 1).val := by
  unfold DotDims.rhsIdx
  rw [dif_neg (show ¬(1 : Fin Cert.ReferenceIdeal.S64x2.rank) ∈ Cert.ReferenceIdeal.dot_S512x64_S64x2_S512x2_1_0_0_1_n_n.rhsBatch by decide), dif_pos (show (1 : Fin Cert.ReferenceIdeal.S64x2.rank) ∈ Cert.ReferenceIdeal.dot_S512x64_S64x2_S512x2_1_0_0_1_n_n.rhsNonContracting by decide)]
  rfl

/-- The host's product of the whole arrays read at row `p`, column `q`: the same sum. -/
theorem ref4_apply (a : FVec Ideal Cert.ReferenceIdeal.S512x64 .f32) (b : FVec Ideal Cert.ReferenceIdeal.S64x2 .f32) (p : Fin 512) (q : Fin 2) :
    Host.dotGeneral (F := Ideal) Cert.ReferenceIdeal.dot_S512x64_S64x2_S512x2_1_0_0_1_n_n none a b (ValueIdx.ix2 p q)
      = ∑ k : Fin 64, a (ValueIdx.ix2 p k) * b (ValueIdx.ix2 k q) := by
  simp only [Host.dotGeneral]
  rw [Ideal.dotGeneral_apply, ← Equiv.sum_comp (ValueIdx.contrEquiv1 Cert.ReferenceIdeal.dot_S512x64_S64x2_S512x2_1_0_0_1_n_n 64 rfl rfl).symm]
  refine Finset.sum_congr rfl fun k _ => ?_
  have hk := ValueIdx.contrEquiv1_symm_val Cert.ReferenceIdeal.dot_S512x64_S64x2_S512x2_1_0_0_1_n_n 64 rfl rfl k
  have el : Cert.ReferenceIdeal.dot_S512x64_S64x2_S512x2_1_0_0_1_n_n.lhsIdx (ValueIdx.ix2 p q) ((ValueIdx.contrEquiv1 Cert.ReferenceIdeal.dot_S512x64_S64x2_S512x2_1_0_0_1_n_n 64 rfl rfl).symm k) = ValueIdx.ix2 p k := funext fun a => Fin.ext (by
    match a with
    | ⟨0, _⟩ => exact rlhs4_0 _ _
    | ⟨1, _⟩ => exact (rlhs4_1 _ _).trans hk)
  have er : Cert.ReferenceIdeal.dot_S512x64_S64x2_S512x2_1_0_0_1_n_n.rhsIdx (ValueIdx.ix2 p q) ((ValueIdx.contrEquiv1 Cert.ReferenceIdeal.dot_S512x64_S64x2_S512x2_1_0_0_1_n_n 64 rfl rfl).symm k) = ValueIdx.ix2 k q := funext fun a => Fin.ext (by
    match a with
    | ⟨0, _⟩ => exact (rrhs4_0 _ _).trans hk
    | ⟨1, _⟩ => exact rrhs4_1 _ _)
  rw [el, er]

/-! ## The bias: entry `q` of the [2] array, on both sides -/

/-- The [2] array reshaped to [1, 2], read at (0, q): its entry `q` (the two have the same row-major position). -/
theorem bias_row_apply (x8 : FVec Ideal Cert.ReferenceIdeal.S2 .f32) (z : Fin 1) (q : Fin 2) :
    shapeCast S1x2 x8 shapeCasts_S2_S1x2 (ValueIdx.ix2 z q) = x8 (ValueIdx.ix1 q) := by
  refine shapeCast_apply x8 shapeCasts_S2_S1x2 (ValueIdx.ix2 z q) (ValueIdx.ix1 q) ?_
  show ((⟨1, ![2]⟩ : Shape).rowMajor (ValueIdx.ix1 q)).val = ((⟨2, ![1, 2]⟩ : Shape).rowMajor (ValueIdx.ix2 z q)).val
  rw [Shape.rowMajor_val_one, Shape.rowMajor_val_two]
  show q.val = z.val * 2 + q.val
  have hz := z.isLt
  omega

/-- The reference's two broadcasts of the [2] array, [2] → [1, 2] → [512, 2], read at (p, q): its entry `q`. -/
theorem bias_ref_apply (x8 : FVec Ideal Cert.ReferenceIdeal.S2 .f32) (p : Fin 512) (q : Fin 2) :
    Cert.ReferenceIdeal.ReadP.val_main_v95 (F := Ideal) x8 (ValueIdx.ix2 p q) = x8 (ValueIdx.ix1 q) := by
  rw [Cert.ReferenceIdeal.ReadP.val_main_v95_apply, Cert.ReferenceIdeal.ReadP.val_main_v94_apply]
  refine congrArg x8 (funext fun d => Fin.ext ?_)
  match d with
  | ⟨0, _⟩ => rfl

/-! ## The grid point's stored block is the whole result -/

/-- What the one grid point stores, at a block index `j`, is the host's product plus the broadcast bias at the array index
    `i` with the same coordinates: the blocks are the whole arrays (`h0`, `h1`, `h2`), and the two sides are then term by
    term the same. -/
theorem point4 (x0 : Vec Ideal S512x64 .f32) (x1 : Vec Ideal S64x2 .f32) (x2 : Vec Ideal S1x2 .f32)
    (a : FVec Ideal Cert.ReferenceIdeal.S512x64 .f32) (b : FVec Ideal Cert.ReferenceIdeal.S64x2 .f32) (x8 : FVec Ideal Cert.ReferenceIdeal.S2 .f32)
    (j : S512x2.Idx) (i : Cert.ReferenceIdeal.S512x2.Idx)
    (hi0 : (i 0).val = (j 0).val) (hi1 : (i 1).val = (j 1).val)
    (h0 : ∀ (y : S512x64.Idx), x0 y = a y) (h1 : ∀ (y : S64x2.Idx), x1 y = b y)
    (h2 : ∀ (y : S1x2.Idx), x2 y = shapeCast S1x2 x8 shapeCasts_S2_S1x2 y) :
    k4_pay1 (F := Ideal) x0 x1 x2 j
      = addf (F := Ideal) (Host.dotGeneral (F := Ideal) Cert.ReferenceIdeal.dot_S512x64_S64x2_S512x2_1_0_0_1_n_n none a b) (Cert.ReferenceIdeal.ReadP.val_main_v95 (F := Ideal) x8) i := by
  obtain ⟨p, q, rfl⟩ : ∃ (p : Fin 512) (q : Fin 2), j = ValueIdx.ix2 p q := ⟨j 0, j 1, ValueIdx.eq_ix2 j⟩
  obtain ⟨p', q', rfl⟩ : ∃ (p' : Fin 512) (q' : Fin 2), i = ValueIdx.ix2 p' q' := ⟨i 0, i 1, ValueIdx.eq_ix2 i⟩
  have hp : p = p' := (Fin.ext hi0).symm
  subst hp
  have hq : q = q' := (Fin.ext hi1).symm
  subst hq
  rw [pay4_apply, ValueIdx.addf_apply, ref4_apply, bias_ref_apply, h2, bias_row_apply]
  refine congrArg (· + x8 (ValueIdx.ix1 q)) (Finset.sum_congr rfl fun k _ => ?_)
  rw [h0 (ValueIdx.ix2 p k), h1 (ValueIdx.ix2 k q)]

/-! ## From the block to the array -/

/-- The index maps, decided over the one grid point: every window's block index is (0, 0). -/
theorem idx4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

variable (V : (c : Dev nD) → (b : Ref sig .tc) → Buf (Elt Ideal) ((c : Thread nD τ).loc b))

/-- The left window's block is the whole left array. -/
theorem blk4_0_apply (c : Dev nD) (t : Fin cfg4.N) (a : FVec Ideal Cert.ReferenceIdeal.S512x64 .f32)
    (h : V c main_v73 = a) (y : S512x64.Idx) :
    (iblk4 (F := Ideal) V c 0 t : Vec Ideal S512x64 .f32) y = a y := by
  obtain ⟨e0, e1, -⟩ := idx4 t
  unfold iblk4
  rw [View.read_apply]
  show V c main_v73 (((cfg4.win 0).blk t).view.emb y) = a y
  rw [h]
  refine congrArg (a) (funext fun d => Fin.ext ?_)
  match d with
  | ⟨0, _⟩ => show win4_0.index t (0 : Fin 2) * 512 + 1 * (y 0).val = (y 0).val; omega
  | ⟨1, _⟩ => show win4_0.index t (1 : Fin 2) * 64 + 1 * (y 1).val = (y 1).val; omega

/-- The right window's block is the whole right operand. -/
theorem blk4_1_apply (c : Dev nD) (t : Fin cfg4.N) (b : FVec Ideal Cert.ReferenceIdeal.S64x2 .f32)
    (h : V c main_arg7 = b) (y : S64x2.Idx) :
    (iblk4 (F := Ideal) V c 1 t : Vec Ideal S64x2 .f32) y = b y := by
  obtain ⟨-, -, e0, e1, -⟩ := idx4 t
  unfold iblk4
  rw [View.read_apply]
  show V c main_arg7 (((cfg4.win 1).blk t).view.emb y) = b y
  rw [h]
  refine congrArg (b) (funext fun d => Fin.ext ?_)
  match d with
  | ⟨0, _⟩ => show win4_1.index t (0 : Fin 2) * 64 + 1 * (y 0).val = (y 0).val; omega
  | ⟨1, _⟩ => show win4_1.index t (1 : Fin 2) * 2 + 1 * (y 1).val = (y 1).val; omega

/-- The bias window's block is the whole [1, 2] bias row. -/
theorem blk4_2_apply (c : Dev nD) (t : Fin cfg4.N) (x8 : FVec Ideal Cert.ReferenceIdeal.S2 .f32)
    (h : V c main_v74 = shapeCast S1x2 x8 shapeCasts_S2_S1x2) (y : S1x2.Idx) :
    (iblk4 (F := Ideal) V c 2 t : Vec Ideal S1x2 .f32) y = shapeCast S1x2 x8 shapeCasts_S2_S1x2 y := by
  obtain ⟨-, -, -, -, e0, e1, -⟩ := idx4 t
  unfold iblk4
  rw [View.read_apply]
  show V c main_v74 (((cfg4.win 2).blk t).view.emb y) = shapeCast S1x2 x8 shapeCasts_S2_S1x2 y
  rw [h]
  refine congrArg (shapeCast S1x2 x8 shapeCasts_S2_S1x2) (funext fun d => Fin.ext ?_)
  match d with
  | ⟨0, _⟩ => show win4_2.index t (0 : Fin 2) * 1 + 1 * (y 0).val = (y 0).val; omega
  | ⟨1, _⟩ => show win4_2.index t (1 : Fin 2) * 2 + 1 * (y 1).val = (y 1).val; omega

/-- What the one point writes back is its block of the host's product plus the broadcast bias. -/
theorem flushed4_eq (c : Dev nD) (t : Fin cfg4.N)
    (a : FVec Ideal Cert.ReferenceIdeal.S512x64 .f32) (b : FVec Ideal Cert.ReferenceIdeal.S64x2 .f32) (x8 : FVec Ideal Cert.ReferenceIdeal.S2 .f32)
    (ha : V c main_v73 = a) (hb : V c main_arg7 = b) (h8 : V c main_v74 = shapeCast S1x2 x8 shapeCasts_S2_S1x2) :
    (dat4 (F := Ideal) V c).flushed 3 t
      = ((cfg4.win 3).blk t).view.read (Elt Ideal)
          (addf (F := Ideal) (Host.dotGeneral (F := Ideal) Cert.ReferenceIdeal.dot_S512x64_S64x2_S512x2_1_0_0_1_n_n none a b) (Cert.ReferenceIdeal.ReadP.val_main_v95 (F := Ideal) x8)) := by
  show (cfg4.win 3).cut (grid4.coords t) ((dat4 (F := Ideal) V c).after 3 t) = _
  rw [after4_3]
  unfold out4_3
  rw [View.canon_unit_zero zero_off4]
  simp only [View.ld_unit_zero (S := S512x64) zero_off4, View.ld_unit_zero (S := S64x2) zero_off4, View.ld_unit_zero (S := S1x2) zero_off4]
  obtain ⟨-, -, -, -, -, -, e0, e1⟩ := idx4 t
  funext j
  show k4_pay1 (F := Ideal) (iblk4 (F := Ideal) V c 0 t) (iblk4 (F := Ideal) V c 1 t) (iblk4 (F := Ideal) V c 2 t) ((cfg4.win 3).xinj (grid4.coords t) j)
    = addf (F := Ideal) (Host.dotGeneral (F := Ideal) Cert.ReferenceIdeal.dot_S512x64_S64x2_S512x2_1_0_0_1_n_n none a b) (Cert.ReferenceIdeal.ReadP.val_main_v95 (F := Ideal) x8) (((cfg4.win 3).blk t).view.emb j)
  refine point4 (iblk4 (F := Ideal) V c 0 t) (iblk4 (F := Ideal) V c 1 t) (iblk4 (F := Ideal) V c 2 t) a b x8
    ((cfg4.win 3).xinj (grid4.coords t) j) (((cfg4.win 3).blk t).view.emb j) ?_ ?_
    (fun y => blk4_0_apply V c t a ha y) (fun y => blk4_1_apply V c t b hb y) (fun y => blk4_2_apply V c t x8 h8 y)
  · show win4_3.index t (0 : Fin 2) * 512 + 1 * (j 0).val = (j 0).val; omega
  · show win4_3.index t (1 : Fin 2) * 2 + 1 * (j 1).val = (j 1).val; omega

/-- An index of the output array is in point `t`'s block iff each coordinate is in the block's range on its axis. -/
theorem mem_blk4 (t : Fin cfg4.N) (i : S512x2.Idx) :
    i ∈ ((cfg4.win 3).blk t).view.set ↔ ∀ d : Fin 2, win4_3.index t d * S512x2.size d ≤ (i d).val ∧ (i d).val < win4_3.index t d * S512x2.size d + S512x2.size d := by
  show i ∈ ((View.whole main_v75).slice (win4_3.rect t)).set ↔ _
  rw [View.set_slice_whole, Rect.mem_set_unit]
  exact Iff.rfl

/-- The one point's block is the whole output. -/
theorem cover4 (i : S512x2.Idx) :
    ∃ t : Fin cfg4.N, (cfg4.win 3).flush t = true ∧ i ∈ ((cfg4.win 3).blk t).view.set := by
  have hi0 : (i 0).val < 512 := (i 0).isLt
  have hi1 : (i 1).val < 2 := (i 1).isLt
  have hN : cfg4.N = 1 := N_4
  let t : Fin cfg4.N := ⟨0, by rw [hN]; omega⟩
  obtain ⟨-, -, -, -, -, -, e0, e1⟩ := idx4 t
  refine ⟨t, flush4_3 t, ?_⟩
  rw [mem_blk4]
  intro d
  match d with
  | ⟨0, _⟩ => show win4_3.index t (0 : Fin 2) * 512 ≤ (i 0).val ∧ (i 0).val < win4_3.index t (0 : Fin 2) * 512 + 512; omega
  | ⟨1, _⟩ => show win4_3.index t (1 : Fin 2) * 2 ≤ (i 1).val ∧ (i 1).val < win4_3.index t (1 : Fin 2) * 2 + 2; omega

/-- The output array after the last region is the host's product of the two input arrays as the region finds them, plus
    the reference's broadcast of the [2] bias array. -/
theorem region4_eq (c : Dev nD) (a : FVec Ideal Cert.ReferenceIdeal.S512x64 .f32) (b : FVec Ideal Cert.ReferenceIdeal.S64x2 .f32) (x8 : FVec Ideal Cert.ReferenceIdeal.S2 .f32)
    (ha : V c main_v73 = a) (hb : V c main_arg7 = b) (h8 : V c main_v74 = shapeCast S1x2 x8 shapeCasts_S2_S1x2) :
    (dat4 (F := Ideal) V c).arrAt 3 cfg4.N
      = addf (F := Ideal) (Host.dotGeneral (F := Ideal) Cert.ReferenceIdeal.dot_S512x64_S64x2_S512x2_1_0_0_1_n_n none a b) (Cert.ReferenceIdeal.ReadP.val_main_v95 (F := Ideal) x8) :=
  (dat4 (F := Ideal) V c).arrAt_eq_of_cover 3
    (addf (F := Ideal) (Host.dotGeneral (F := Ideal) Cert.ReferenceIdeal.dot_S512x64_S64x2_S512x2_1_0_0_1_n_n none a b) (Cert.ReferenceIdeal.ReadP.val_main_v95 (F := Ideal) x8))
    (fun t _ => flushed4_eq V c t a b x8 ha hb h8) (cover4)

end Cert.KernelIdeal.Bridge

end
-- ==== Proof.Boundary.lean ====
/-
  The buffer contents at the idealized kernel's eleven boundaries, read against the reference's stages.
  Write x0 … x8 for the argument arrays as launched. The kernel's @main alternates stretches of host operations with
  five Pallas calls. A stretch's result at a buffer is the composition of its operations over the contents it started
  from; a call leaves its output array at the whole-array operation its grid points compute block by block (the five
  region lemmas) and every other buffer untouched. Walking the boundaries in order, the buffer that carries the
  computation holds, each time, the reference's stage of the same arguments:
    x·W1 (the first product)  →  the layer-one aggregate  →  max (· + b1, 0)  →  ·W2  →  the layer-two aggregate
    →  max (· + b2, 0)  →  the pooled means  →  ·Wfc + bfc,
  and the edge lists and the per-edge coefficient, computed once before the first call, are carried unchanged across
  the calls that do not touch them. Every step is either a rewrite by an earlier step or the observation that both
  sides are the same operations applied to equal operands; no property of the numbers is used.
-/
import proofs.«105349_j28750511080087_1_alg».proof.Proof.Gen.KernelIdeal.Frame
import proofs.«105349_j28750511080087_1_alg».proof.Proof.RefRead
import proofs.«105349_j28750511080087_1_alg».proof.Proof.Region0
import proofs.«105349_j28750511080087_1_alg».proof.Proof.Region1
import proofs.«105349_j28750511080087_1_alg».proof.Proof.Region2
import proofs.«105349_j28750511080087_1_alg».proof.Proof.Region3
import proofs.«105349_j28750511080087_1_alg».proof.Proof.Region4

set_option maxRecDepth 16384

noncomputable section

namespace Cert.KernelIdeal.Bridge

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first call: the edge lists, the normalisation, the arguments -/

theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp
theorem W3_arg1 : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  after_results_simp
theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp
theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp
theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp
theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp
theorem W3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp
theorem W3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp
theorem W3_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp

/-- The source list with the self-loops appended, after the first stretch. -/
theorem H0_v3 : StableHlo.after hostOps0 (W0 m ρ c) (Proc.devRef .tc main_v3) = val_main_v3 (F := Ideal) (m ((c : Thread nD τ).loc main_arg1)) := by
  after_results_simp
  rfl
/-- The target list with the self-loops appended, after the first stretch. -/
theorem H0_v6 : StableHlo.after hostOps0 (W0 m ρ c) (Proc.devRef .tc main_v6) = val_main_v6 (F := Ideal) (m ((c : Thread nD τ).loc main_arg1)) := by
  after_results_simp
  rfl
set_option maxHeartbeats 4000000 in
/-- The mask \`deg > 0\`: the degree is the scatter-add of ones at the targets, so it is a function of the target list. -/
theorem H0_v12 : StableHlo.after hostOps0 (W0 m ρ c) (Proc.devRef .tc main_v12) = val_main_v12 (F := Ideal) (m ((c : Thread nD τ).loc main_arg1)) := by
  have E6 := H0_v6 m ρ c
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at E6
  after_results_simp
  rw [E6]
  rfl
set_option maxHeartbeats 4000000 in
/-- \`rsqrt deg\`, of the same degree vector. -/
theorem H0_v13 : StableHlo.after hostOps0 (W0 m ρ c) (Proc.devRef .tc main_v13) = val_main_v13 (F := Ideal) (m ((c : Thread nD τ).loc main_arg1)) := by
  have E6 := H0_v6 m ρ c
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at E6
  after_results_simp
  rw [E6]
  rfl
theorem H0_cst2 : StableHlo.after hostOps0 (W0 m ρ c) (Proc.devRef .tc main_cst_2) = val_main_cst_2 (F := Ideal) := by
  after_results_simp
  rfl
/-- The outlined `where`: over ANY contents `U`, the selected vector from `U`'s mask, value and scalar. -/
theorem where_at (U : Valuation τ sig (Elt Ideal)) (p : (⟨S100000, .i1⟩ : BufTy).Contents (Elt Ideal)) (a : FVec Ideal S100000 .f32) (z : FVec Ideal S_ .f32)
    (hp : U (Proc.devRef .tc main_v12) = p) (ha : U (Proc.devRef .tc main_v13) = a) (hz : U (Proc.devRef .tc main_cst_2) = z) :
    StableHlo.after hostOps0_1 U (Proc.devRef .tc main_v14) = select p a (broadcastInDim S100000 ![] bcast_S_S100000 (id z)) := by
  after_results_simp
  rw [hp, ha, hz]
  rfl
/-- \`where (deg > 0) (rsqrt deg) 0\` at the real contents: the reference's stage of the edge list. -/
theorem H1_v14 : StableHlo.after hostOps0_1 (StableHlo.after hostOps0 (W0 m ρ c)) (Proc.devRef .tc main_v14) = val_main_v14 (F := Ideal) (m ((c : Thread nD τ).loc main_arg1)) :=
  (where_at _ _ _ _ (H0_v12 m ρ c) (H0_v13 m ρ c) (H0_cst2 m ρ c)).trans rfl
theorem W3_v3 : W3 m ρ c (Proc.devRef .tc main_v3) = val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp
  rfl
theorem W3_v6 : W3 m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp
  rfl
set_option maxHeartbeats 8000000 in
/-- The per-edge coefficient `dinv[row] * dinv[col]` (row and col wrapped into range as jnp indexing does): the
    reference's stage. The three facts it is built from are first put in the form the fold leaves them in, so that
    they rewrite the goal's subterms, and what is left is the same operations on both sides. -/
theorem W3_v29 : W3 m ρ c (Proc.devRef .tc main_v29) = val_main_v30 (F := Ideal) (m ((c : Thread nD τ).loc main_arg1)) := by
  have E3 := H0_v3 m ρ c
  have E6 := H0_v6 m ρ c
  have E14 := H1_v14 m ρ c
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at E3 E6 E14
  show StableHlo.after hostOps0_2 (StableHlo.after hostOps0_1 (StableHlo.after hostOps0 (W0 m ρ c))) (Proc.devRef .tc main_v29) = _
  after_results_simp
  rw [E14, E3, E6]
  rfl

/-! ## The first product, and what is carried across it -/

theorem W4_v30 : W4 m ρ c (Proc.devRef .tc main_v30) = val_main_v15 (F := Ideal) (m ((c : Thread nD τ).loc main_arg0)) (m ((c : Thread nD τ).loc main_arg3)) :=
  (W4_arr m ρ c 2).trans (region0_eq (V3 m ρ) c _ _ (W3_arg0 m ρ c) (W3_arg3 m ρ c))
theorem W4_arg1 : W4 m ρ c (Proc.devRef .tc main_arg1) = (m ((c : Thread nD τ).loc main_arg1)) := (W4_of_ne m ρ c main_arg1 (by decide)).trans (W3_arg1 m ρ c)
theorem W4_arg2 : W4 m ρ c (Proc.devRef .tc main_arg2) = (m ((c : Thread nD τ).loc main_arg2)) := (W4_of_ne m ρ c main_arg2 (by decide)).trans (W3_arg2 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)
theorem W4_arg8 : W4 m ρ c (Proc.devRef .tc main_arg8) = (m ((c : Thread nD τ).loc main_arg8)) := (W4_of_ne m ρ c main_arg8 (by decide)).trans (W3_arg8 m ρ c)
theorem W4_v3 : W4 m ρ c (Proc.devRef .tc main_v3) = val_main_v3 (F := Ideal) (m ((c : Thread nD τ).loc main_arg1)) := (W4_of_ne m ρ c main_v3 (by decide)).trans (W3_v3 m ρ c)
theorem W4_v6 : W4 m ρ c (Proc.devRef .tc main_v6) = val_main_v6 (F := Ideal) (m ((c : Thread nD τ).loc main_arg1)) := (W4_of_ne m ρ c main_v6 (by decide)).trans (W3_v6 m ρ c)
theorem W4_v29 : W4 m ρ c (Proc.devRef .tc main_v29) = val_main_v30 (F := Ideal) (m ((c : Thread nD τ).loc main_arg1)) := (W4_of_ne m ρ c main_v29 (by decide)).trans (W3_v29 m ρ c)

/-! ## First layer: gather, scale, scatter-add; bias and ReLU; the second product -/

set_option maxHeartbeats 4000000 in
/-- The aggregated messages of layer one: the same gather, scaling and scatter-add as the reference's, of equal operands. -/
theorem W5_v43 : W5 m ρ c (Proc.devRef .tc main_v43) = val_main_v43 (F := Ideal) (m ((c : Thread nD τ).loc main_arg0)) (m ((c : Thread nD τ).loc main_arg1)) (m ((c : Thread nD τ).loc main_arg3)) := by
  show StableHlo.after hostOps1 (W4 m ρ c) (Proc.devRef .tc main_v43) = _
  after_results_simp
  rw [W4_v30 m ρ c, W4_v3 m ρ c, W4_v6 m ρ c, W4_v29 m ρ c]
  rfl
theorem W5_v44 : W5 m ρ c (Proc.devRef .tc main_v44) = shapeCast S1x64 (m ((c : Thread nD τ).loc main_arg4)) shapeCasts_S64_S1x64 := by
  show StableHlo.after hostOps1 (W4 m ρ c) (Proc.devRef .tc main_v44) = _
  after_results_simp
  rw [W4_arg4 m ρ c]
  rfl
theorem W5_arg1 : W5 m ρ c (Proc.devRef .tc main_arg1) = (m ((c : Thread nD τ).loc main_arg1)) := by
  show StableHlo.after hostOps1 (W4 m ρ c) (Proc.devRef .tc main_arg1) = _
  after_results_simp
  exact W4_arg1 m ρ c
theorem W5_arg2 : W5 m ρ c (Proc.devRef .tc main_arg2) = (m ((c : Thread nD τ).loc main_arg2)) := by
  show StableHlo.after hostOps1 (W4 m ρ c) (Proc.devRef .tc main_arg2) = _
  after_results_simp
  exact W4_arg2 m ρ c
theorem W5_arg5 : W5 m ρ c (Proc.devRef .tc main_arg5) = (m ((c : Thread nD τ).loc main_arg5)) := by
  show StableHlo.after hostOps1 (W4 m ρ c) (Proc.devRef .tc main_arg5) = _
  after_results_simp
  exact W4_arg5 m ρ c
theorem W5_arg6 : W5 m ρ c (Proc.devRef .tc main_arg6) = (m ((c : Thread nD τ).loc main_arg6)) := by
  show StableHlo.after hostOps1 (W4 m ρ c) (Proc.devRef .tc main_arg6) = _
  after_results_simp
  exact W4_arg6 m ρ c
theorem W5_arg7 : W5 m ρ c (Proc.devRef .tc main_arg7) = (m ((c : Thread nD τ).loc main_arg7)) := by
  show StableHlo.after hostOps1 (W4 m ρ c) (Proc.devRef .tc main_arg7) = _
  after_results_simp
  exact W4_arg7 m ρ c
theorem W5_arg8 : W5 m ρ c (Proc.devRef .tc main_arg8) = (m ((c : Thread nD τ).loc main_arg8)) := by
  show StableHlo.after hostOps1 (W4 m ρ c) (Proc.devRef .tc main_arg8) = _
  after_results_simp
  exact W4_arg8 m ρ c
theorem W5_v3 : W5 m ρ c (Proc.devRef .tc main_v3) = val_main_v3 (F := Ideal) (m ((c : Thread nD τ).loc main_arg1)) := by
  show StableHlo.after hostOps1 (W4 m ρ c) (Proc.devRef .tc main_v3) = _
  after_results_simp
  exact W4_v3 m ρ c
theorem W5_v6 : W5 m ρ c (Proc.devRef .tc main_v6) = val_main_v6 (F := Ideal) (m ((c : Thread nD τ).loc main_arg1)) := by
  show StableHlo.after hostOps1 (W4 m ρ c) (Proc.devRef .tc main_v6) = _
  after_results_simp
  exact W4_v6 m ρ c
theorem W5_v29 : W5 m ρ c (Proc.devRef .tc main_v29) = val_main_v30 (F := Ideal) (m ((c : Thread nD τ).loc main_arg1)) := by
  show StableHlo.after hostOps1 (W4 m ρ c) (Proc.devRef .tc main_v29) = _
  after_results_simp
  exact W4_v29 m ρ c
theorem W6_v45 : W6 m ρ c (Proc.devRef .tc main_v45) = val_main_v47 (F := Ideal) (m ((c : Thread nD τ).loc main_arg0)) (m ((c : Thread nD τ).loc main_arg1)) (m ((c : Thread nD τ).loc main_arg3)) (m ((c : Thread nD τ).loc main_arg4)) :=
  (W6_arr m ρ c 2).trans (region1_eq (V5 m ρ) c _ _ (W5_v43 m ρ c) (W5_v44 m ρ c))
theorem W6_arg1 : W6 m ρ c (Proc.devRef .tc main_arg1) = (m ((c : Thread nD τ).loc main_arg1)) := (W6_of_ne m ρ c main_arg1 (by decide)).trans (W5_arg1 m ρ c)
theorem W6_arg2 : W6 m ρ c (Proc.devRef .tc main_arg2) = (m ((c : Thread nD τ).loc main_arg2)) := (W6_of_ne m ρ c main_arg2 (by decide)).trans (W5_arg2 m ρ c)
theorem W6_arg5 : W6 m ρ c (Proc.devRef .tc main_arg5) = (m ((c : Thread nD τ).loc main_arg5)) := (W6_of_ne m ρ c main_arg5 (by decide)).trans (W5_arg5 m ρ c)
theorem W6_arg6 : W6 m ρ c (Proc.devRef .tc main_arg6) = (m ((c : Thread nD τ).loc main_arg6)) := (W6_of_ne m ρ c main_arg6 (by decide)).trans (W5_arg6 m ρ c)
theorem W6_arg7 : W6 m ρ c (Proc.devRef .tc main_arg7) = (m ((c : Thread nD τ).loc main_arg7)) := (W6_of_ne m ρ c main_arg7 (by decide)).trans (W5_arg7 m ρ c)
theorem W6_arg8 : W6 m ρ c (Proc.devRef .tc main_arg8) = (m ((c : Thread nD τ).loc main_arg8)) := (W6_of_ne m ρ c main_arg8 (by decide)).trans (W5_arg8 m ρ c)
theorem W6_v3 : W6 m ρ c (Proc.devRef .tc main_v3) = val_main_v3 (F := Ideal) (m ((c : Thread nD τ).loc main_arg1)) := (W6_of_ne m ρ c main_v3 (by decide)).trans (W5_v3 m ρ c)
theorem W6_v6 : W6 m ρ c (Proc.devRef .tc main_v6) = val_main_v6 (F := Ideal) (m ((c : Thread nD τ).loc main_arg1)) := (W6_of_ne m ρ c main_v6 (by decide)).trans (W5_v6 m ρ c)
theorem W6_v29 : W6 m ρ c (Proc.devRef .tc main_v29) = val_main_v30 (F := Ideal) (m ((c : Thread nD τ).loc main_arg1)) := (W6_of_ne m ρ c main_v29 (by decide)).trans (W5_v29 m ρ c)
theorem W7_v46 : W7 m ρ c (Proc.devRef .tc main_v46) = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W7_arr m ρ c 2).trans (region2_eq (V6 m ρ) c _ _ (W6_v45 m ρ c) (W6_arg5 m ρ c))
theorem W7_arg1 : W7 m ρ c (Proc.devRef .tc main_arg1) = (m ((c : Thread nD τ).loc main_arg1)) := (W7_of_ne m ρ c main_arg1 (by decide)).trans (W6_arg1 m ρ c)
theorem W7_arg2 : W7 m ρ c (Proc.devRef .tc main_arg2) = (m ((c : Thread nD τ).loc main_arg2)) := (W7_of_ne m ρ c main_arg2 (by decide)).trans (W6_arg2 m ρ c)
theorem W7_arg6 : W7 m ρ c (Proc.devRef .tc main_arg6) = (m ((c : Thread nD τ).loc main_arg6)) := (W7_of_ne m ρ c main_arg6 (by decide)).trans (W6_arg6 m ρ c)
theorem W7_arg7 : W7 m ρ c (Proc.devRef .tc main_arg7) = (m ((c : Thread nD τ).loc main_arg7)) := (W7_of_ne m ρ c main_arg7 (by decide)).trans (W6_arg7 m ρ c)
theorem W7_arg8 : W7 m ρ c (Proc.devRef .tc main_arg8) = (m ((c : Thread nD τ).loc main_arg8)) := (W7_of_ne m ρ c main_arg8 (by decide)).trans (W6_arg8 m ρ c)
theorem W7_v3 : W7 m ρ c (Proc.devRef .tc main_v3) = val_main_v3 (F := Ideal) (m ((c : Thread nD τ).loc main_arg1)) := (W7_of_ne m ρ c main_v3 (by decide)).trans (W6_v3 m ρ c)
theorem W7_v6 : W7 m ρ c (Proc.devRef .tc main_v6) = val_main_v6 (F := Ideal) (m ((c : Thread nD τ).loc main_arg1)) := (W7_of_ne m ρ c main_v6 (by decide)).trans (W6_v6 m ρ c)
theorem W7_v29 : W7 m ρ c (Proc.devRef .tc main_v29) = val_main_v30 (F := Ideal) (m ((c : Thread nD τ).loc main_arg1)) := (W7_of_ne m ρ c main_v29 (by decide)).trans (W6_v29 m ρ c)
/-! ## Second layer -/

set_option maxHeartbeats 4000000 in
/-- The aggregated messages of layer two. The reference recomputes the per-edge coefficient for this layer; it is the
    same operations on the same edge list, so the two coefficient vectors are one term after unfolding. -/
theorem W8_v59 : W8 m ρ c (Proc.devRef .tc main_v59) = val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W7 m ρ c) (Proc.devRef .tc main_v59) = _
  after_results_simp
  rw [W7_v46 m ρ c, W7_v3 m ρ c, W7_v6 m ρ c, W7_v29 m ρ c]
  rfl
theorem W8_v60 : W8 m ρ c (Proc.devRef .tc main_v60) = shapeCast S1x64 (m ((c : Thread nD τ).loc main_arg6)) shapeCasts_S64_S1x64 := by
  show StableHlo.after hostOps3 (W7 m ρ c) (Proc.devRef .tc main_v60) = _
  after_results_simp
  rw [W7_arg6 m ρ c]
  rfl
theorem W8_arg2 : W8 m ρ c (Proc.devRef .tc main_arg2) = (m ((c : Thread nD τ).loc main_arg2)) := by
  show StableHlo.after hostOps3 (W7 m ρ c) (Proc.devRef .tc main_arg2) = _
  after_results_simp
  exact W7_arg2 m ρ c
theorem W8_arg7 : W8 m ρ c (Proc.devRef .tc main_arg7) = (m ((c : Thread nD τ).loc main_arg7)) := by
  show StableHlo.after hostOps3 (W7 m ρ c) (Proc.devRef .tc main_arg7) = _
  after_results_simp
  exact W7_arg7 m ρ c
theorem W8_arg8 : W8 m ρ c (Proc.devRef .tc main_arg8) = (m ((c : Thread nD τ).loc main_arg8)) := by
  show StableHlo.after hostOps3 (W7 m ρ c) (Proc.devRef .tc main_arg8) = _
  after_results_simp
  exact W7_arg8 m ρ c
theorem W9_v61 : W9 m ρ c (Proc.devRef .tc main_v61) = val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W9_arr m ρ c 2).trans (region3_eq (V8 m ρ) c _ _ (W8_v59 m ρ c) (W8_v60 m ρ c))
theorem W9_arg2 : W9 m ρ c (Proc.devRef .tc main_arg2) = (m ((c : Thread nD τ).loc main_arg2)) := (W9_of_ne m ρ c main_arg2 (by decide)).trans (W8_arg2 m ρ c)
theorem W9_arg7 : W9 m ρ c (Proc.devRef .tc main_arg7) = (m ((c : Thread nD τ).loc main_arg7)) := (W9_of_ne m ρ c main_arg7 (by decide)).trans (W8_arg7 m ρ c)
theorem W9_arg8 : W9 m ρ c (Proc.devRef .tc main_arg8) = (m ((c : Thread nD τ).loc main_arg8)) := (W9_of_ne m ρ c main_arg8 (by decide)).trans (W8_arg8 m ρ c)
/-! ## Mean pooling and the head -/

set_option maxHeartbeats 4000000 in
/-- The pooled features: per-graph sums over per-graph counts (at least one). -/
theorem W10_v73 : W10 m ρ c (Proc.devRef .tc main_v73) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W9 m ρ c) (Proc.devRef .tc main_v73) = _
  after_results_simp
  rw [W9_v61 m ρ c, W9_arg2 m ρ c]
  rfl
theorem W10_v74 : W10 m ρ c (Proc.devRef .tc main_v74) = shapeCast S1x2 (m ((c : Thread nD τ).loc main_arg8)) shapeCasts_S2_S1x2 := by
  show StableHlo.after hostOps4 (W9 m ρ c) (Proc.devRef .tc main_v74) = _
  after_results_simp
  rw [W9_arg8 m ρ c]
  rfl
theorem W10_arg7 : W10 m ρ c (Proc.devRef .tc main_arg7) = (m ((c : Thread nD τ).loc main_arg7)) := by
  show StableHlo.after hostOps4 (W9 m ρ c) (Proc.devRef .tc main_arg7) = _
  after_results_simp
  exact W9_arg7 m ρ c
/-- The last boundary's contents at the result buffer are the reference's last stage of the same arguments. -/
theorem W11_v75 : W11 m ρ c (Proc.devRef .tc main_v75) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W11_arr m ρ c 3).trans (region4_eq (V10 m ρ) c _ _ _ (W10_v73 m ρ c) (W10_arg7 m ρ c) (W10_v74 m ρ c))

end Cert.KernelIdeal.Bridge

end
-- ==== Proof.lean ====
/-
  A two-layer graph convolution with mean pooling and a linear head, on 100000 nodes with 128 features, 3200000
  edges (self-loops added) and 512 graphs: the kernel computes the three dense products and the two bias-add-ReLU
  passes in five Pallas calls tiled over 10000-row blocks, and leaves the gathers, the degree normalisation, the
  scatter-adds and the pooling to host operations; the reference is the same network in plain host operations.
  Over the extended reals the two agree exactly, with no appeal to finiteness: a change of float format is the
  identity, so each tiled product is the whole product restricted to its row block (the same finite sum over the
  contracted axis, term by term), each tiled `max (agg + bias, 0)` is the whole one restricted to its rows, and every
  other operation is literally the same function applied to equal operands. So at each of the kernel program's
  eleven boundaries the buffer that carries the computation holds the reference's stage of the same arguments
  (`Bridge.W11_v75` at the last), and the two results are one term.
  The three frames: both kernel programs terminate without a fault and leave their arguments alone by the launch
  theorem over their segments; the reference by its run with the result dropped. The idealization rewrote nothing.
-/
import proofs.«105349_j28750511080087_1_alg».proof.Defs
import proofs.«105349_j28750511080087_1_alg».proof.Proof.Gen.Kernel
import proofs.«105349_j28750511080087_1_alg».proof.Proof.Gen.Kernel.Skeleton
import proofs.«105349_j28750511080087_1_alg».proof.Proof.Gen.Kernel.Launch
import proofs.«105349_j28750511080087_1_alg».proof.Proof.Gen.Kernel.Points
import proofs.«105349_j28750511080087_1_alg».proof.Proof.Gen.Kernel.Frame
import proofs.«105349_j28750511080087_1_alg».proof.Proof.Gen.KernelIdeal
import proofs.«105349_j28750511080087_1_alg».proof.Proof.Gen.KernelIdeal.Skeleton
import proofs.«105349_j28750511080087_1_alg».proof.Proof.Gen.KernelIdeal.Launch
import proofs.«105349_j28750511080087_1_alg».proof.Proof.Gen.KernelIdeal.Points
import proofs.«105349_j28750511080087_1_alg».proof.Proof.Gen.KernelIdeal.Frame
import proofs.«105349_j28750511080087_1_alg».proof.Proof.Gen.ReferenceIdeal
import proofs.«105349_j28750511080087_1_alg».proof.Proof.Gen.Pre_finite_inputs
import proofs.«105349_j28750511080087_1_alg».proof.Proof.KRun
import proofs.«105349_j28750511080087_1_alg».proof.Proof.RefRun
import proofs.«105349_j28750511080087_1_alg».proof.Proof.RefRead
import proofs.«105349_j28750511080087_1_alg».proof.Proof.Boundary
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result buffer at the reference's last stage of the (agreeing) arguments. -/
theorem algebraic : Cert.algebraic_KernelIdeal_ReferenceIdeal := by
  intro m ρ m' ρ' _ hagree
  refine ⟨fun c => Cert.ReferenceIdeal.ReadP.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Bridge.W11_v75 m ρ c), (h c).2⟩)
      (Cert.KernelIdeal.Bridge.run_result (F := Ideal) m ρ)
  · refine (θ_run Cert.ReferenceIdeal.defs _ _).mono (fun _ h c => ⟨?_, (h c).2⟩) (Cert.ReferenceIdeal.ValueP.run (F := Ideal) m' ρ')
    rw [(h c).1, Cert.ReferenceIdeal.ReadP.val_main_v96_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
